-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x160000 : Shape := ⟨3, ![16, 4, 160000]⟩
abbrev S_ : Shape := ⟨0, ![]⟩

class Facts : Prop where
  bcast_S_S16x4x160000 : S_.BroadcastsInDim S16x4x160000 (![] : Fin 0 → Fin S16x4x160000.rank)
  reducesTo_S16x4x160000_S_d0_1_2 : S16x4x160000.ReducesTo [0, 1, 2] S_
  h_S_ : 0 < S_.numel

variable [Facts]

def fn {F : FTy → Type} [FloatOps F] (main_arg0 : FVec F S16x4x160000 .f32) : IVec S_ 1 :=
  let main_v0 : FVec F S16x4x160000 .f32 := Host.absf main_arg0
  let main_cst : FVec F S_ .f32 := constant S_ .f32 0x7F800000#32
  let main_v1 : FVec F S16x4x160000 .f32 := broadcastInDim S16x4x160000 ![] bcast_S_S16x4x160000 main_cst
  let main_v2 : IVec S16x4x160000 1 := cmpf .olt main_v0 main_v1
  let main_c : IVec S_ 1 := constantI S_ 1 1#1
  let main_v3 : IVec S_ 1 := (fun x v => Host.reduce IntOp.andi x v reducesTo_S16x4x160000_S_d0_1_2 h_S_) main_v2 main_c
  main_v3
-- ==== Kernel.lean ====
abbrev S16x4x160000 : Shape := ⟨3, ![16, 4, 160000]⟩
abbrev S16x4x159744 : Shape := ⟨3, ![16, 4, 159744]⟩
abbrev S16x4x312x512 : Shape := ⟨4, ![16, 4, 312, 512]⟩
abbrev S16x4x512x312 : Shape := ⟨4, ![16, 4, 512, 312]⟩
abbrev S16x8192x309 : Shape := ⟨3, ![16, 8192, 309]⟩
abbrev S1x4x512x312 : Shape := ⟨4, ![1, 4, 512, 312]⟩
abbrev S1x8192x309 : Shape := ⟨3, ![1, 8192, 309]⟩
abbrev S4x512x312 : Shape := ⟨3, ![4, 512, 312]⟩
abbrev S1x512x312 : Shape := ⟨3, ![1, 512, 312]⟩
abbrev S512x312 : Shape := ⟨2, ![512, 312]⟩
abbrev S512x309 : Shape := ⟨2, ![512, 309]⟩
abbrev S8192x309 : Shape := ⟨2, ![8192, 309]⟩

abbrev nBuf : Space → Nat
  | .hbm => 5
  | .vmem => 4
  | .smem => 0
  | _ => 0

abbrev bufTy : (tb : Table) → Fin (tcTables nBuf tb) → BufTy
  | .hbm, ⟨0, _⟩ => ⟨S16x4x160000, .f32⟩
  | .hbm, ⟨1, _⟩ => ⟨S16x4x159744, .f32⟩
  | .hbm, ⟨2, _⟩ => ⟨S16x4x312x512, .f32⟩
  | .hbm, ⟨3, _⟩ => ⟨S16x4x512x312, .f32⟩
  | .hbm, ⟨4, _⟩ => ⟨S16x8192x309, .f32⟩
  | .local _ .vmem, ⟨0, _⟩ => ⟨S1x4x512x312, .f32⟩
  | .local _ .vmem, ⟨1, _⟩ => ⟨S1x4x512x312, .f32⟩
  | .local _ .vmem, ⟨2, _⟩ => ⟨S1x8192x309, .f32⟩
  | .local _ .vmem, ⟨3, _⟩ => ⟨S1x8192x309, .f32⟩
  | _, _ => ⟨S16x4x160000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512x312 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x309 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S16x4x160000_S16x4x159744_0_0_0 : S16x4x160000.Slices ![0, 0, 0] S16x4x159744
  shapeCasts_S16x4x159744_S16x4x312x512 : S16x4x159744.ShapeCasts S16x4x312x512
  transposes_S16x4x312x512_S16x4x512x312_0_1_3_2 : S16x4x312x512.Transposes [0, 1, 3, 2] S16x4x512x312
  inb_S1x4x512x312_S1x4x512x312_0_0_0_0 : ∀ a, (![0, 0, 0, 0] : Fin 4 → Nat) a + S1x4x512x312.size a ≤ S1x4x512x312.size a
  squeezes_S1x4x512x312_S4x512x312 : S1x4x512x312.Squeezes S4x512x312
  inb_S4x512x312_S1x512x312_0_0_0 : ∀ a, (![0, 0, 0] : Fin 3 → Nat) a + S1x512x312.size a ≤ S4x512x312.size a
  squeezes_S1x512x312_S512x312 : S1x512x312.Squeezes S512x312
  inb_S512x312_S512x309_0_0 : ∀ a, (![0, 0] : Fin 2 → Nat) a + S512x309.size a ≤ S512x312.size a
  h_S512x309 : 0 < S512x309.numel
  shapeCasts_S512x309_S512x309 : S512x309.ShapeCasts S512x309
  inb_S1x8192x309_S1x8192x309_0_0_0 : ∀ a, (![0, 0, 0] : Fin 3 → Nat) a + S1x8192x309.size a ≤ S1x8192x309.size a
  squeezes_S1x8192x309_S8192x309 : S1x8192x309.Squeezes S8192x309
  inb_S8192x309_S512x309_0_0 : ∀ a, (![0, 0] : Fin 2 → Nat) a + S512x309.size a ≤ S8192x309.size a
  inb_S512x312_S512x309_0_1 : ∀ a, (![0, 1] : Fin 2 → Nat) a + S512x309.size a ≤ S512x312.size a
  inb_S8192x309_S512x309_512_0 : ∀ a, (![512, 0] : Fin 2 → Nat) a + S512x309.size a ≤ S8192x309.size a
  inb_S512x312_S512x309_0_2 : ∀ a, (![0, 2] : Fin 2 → Nat) a + S512x309.size a ≤ S512x312.size a
  inb_S8192x309_S512x309_1024_0 : ∀ a, (![1024, 0] : Fin 2 → Nat) a + S512x309.size a ≤ S8192x309.size a
  inb_S512x312_S512x309_0_3 : ∀ a, (![0, 3] : Fin 2 → Nat) a + S512x309.size a ≤ S512x312.size a
  inb_S8192x309_S512x309_1536_0 : ∀ a, (![1536, 0] : Fin 2 → Nat) a + S512x309.size a ≤ S8192x309.size a
  inb_S4x512x312_S1x512x312_1_0_0 : ∀ a, (![1, 0, 0] : Fin 3 → Nat) a + S1x512x312.size a ≤ S4x512x312.size a
  inb_S8192x309_S512x309_2048_0 : ∀ a, (![2048, 0] : Fin 2 → Nat) a + S512x309.size a ≤ S8192x309.size a
  inb_S8192x309_S512x309_2560_0 : ∀ a, (![2560, 0] : Fin 2 → Nat) a + S512x309.size a ≤ S8192x309.size a
  inb_S8192x309_S512x309_3072_0 : ∀ a, (![3072, 0] : Fin 2 → Nat) a + S512x309.size a ≤ S8192x309.size a
  inb_S8192x309_S512x309_3584_0 : ∀ a, (![3584, 0] : Fin 2 → Nat) a + S512x309.size a ≤ S8192x309.size a
  inb_S4x512x312_S1x512x312_2_0_0 : ∀ a, (![2, 0, 0] : Fin 3 → Nat) a + S1x512x312.size a ≤ S4x512x312.size a
  inb_S8192x309_S512x309_4096_0 : ∀ a, (![4096, 0] : Fin 2 → Nat) a + S512x309.size a ≤ S8192x309.size a
  inb_S8192x309_S512x309_4608_0 : ∀ a, (![4608, 0] : Fin 2 → Nat) a + S512x309.size a ≤ S8192x309.size a
  inb_S8192x309_S512x309_5120_0 : ∀ a, (![5120, 0] : Fin 2 → Nat) a + S512x309.size a ≤ S8192x309.size a
  inb_S8192x309_S512x309_5632_0 : ∀ a, (![5632, 0] : Fin 2 → Nat) a + S512x309.size a ≤ S8192x309.size a
  inb_S4x512x312_S1x512x312_3_0_0 : ∀ a, (![3, 0, 0] : Fin 3 → Nat) a + S1x512x312.size a ≤ S4x512x312.size a
  inb_S8192x309_S512x309_6144_0 : ∀ a, (![6144, 0] : Fin 2 → Nat) a + S512x309.size a ≤ S8192x309.size a
  inb_S8192x309_S512x309_6656_0 : ∀ a, (![6656, 0] : Fin 2 → Nat) a + S512x309.size a ≤ S8192x309.size a
  inb_S8192x309_S512x309_7168_0 : ∀ a, (![7168, 0] : Fin 2 → Nat) a + S512x309.size a ≤ S8192x309.size a
  inb_S8192x309_S512x309_7680_0 : ∀ a, (![7680, 0] : Fin 2 → Nat) a + S512x309.size a ≤ S8192x309.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x312.size a ≤ S16x4x512x312.size a
  hwx0_0 : ∀ i : grid0.Coords, EltTy.bits .f32 = 32 ∨ (Rect.block (s := S16x4x512x312) S1x4x512x312.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x309.size a ≤ S16x8192x309.size a
  hwx0_1 : ∀ i : grid0.Coords, EltTy.bits .f32 = 32 ∨ (Rect.block (s := S16x8192x309) S1x8192x309.size (cc0_transform_1 i) (hinb0_1 i)).WholeWords (EltTy.packing .f32)

variable [Facts₀]

abbrev win0_0 : Pipeline.Window sig grid0 :=
  Pipeline.Window.ofSpec (Memref.whole main_v2) S1x4x512x312.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8192x309.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x4x160000 : Shape := ⟨3, ![16, 4, 160000]⟩
abbrev S309 : Shape := ⟨1, ![309]⟩
abbrev S_ : Shape := ⟨0, ![]⟩
abbrev S2048 : Shape := ⟨1, ![2048]⟩
abbrev S2048x1 : Shape := ⟨2, ![2048, 1]⟩
abbrev S1x309 : Shape := ⟨2, ![1, 309]⟩
abbrev S2048x309 : Shape := ⟨2, ![2048, 309]⟩
abbrev S2048x309x1 : Shape := ⟨3, ![2048, 309, 1]⟩
abbrev S16x4x2048x309 : Shape := ⟨4, ![16, 4, 2048, 309]⟩
abbrev S16x8192x309 : Shape := ⟨3, ![16, 8192, 309]⟩

abbrev nBuf : Space → Nat
  | .hbm => 21
  | .vmem => 0
  | .smem => 0
  | _ => 0

abbrev bufTy : (tb : Table) → Fin (tcTables nBuf tb) → BufTy
  | .hbm, ⟨0, _⟩ => ⟨S16x4x160000, .f32⟩
  | .hbm, ⟨1, _⟩ => ⟨S309, .i32⟩
  | .hbm, ⟨2, _⟩ => ⟨S_, .i32⟩
  | .hbm, ⟨3, _⟩ => ⟨S309, .i32⟩
  | .hbm, ⟨4, _⟩ => ⟨S309, .i32⟩
  | .hbm, ⟨5, _⟩ => ⟨S2048, .i32⟩
  | .hbm, ⟨6, _⟩ => ⟨S2048x1, .i32⟩
  | .hbm, ⟨7, _⟩ => ⟨S1x309, .i32⟩
  | .hbm, ⟨8, _⟩ => ⟨S2048x309, .i32⟩
  | .hbm, ⟨9, _⟩ => ⟨S2048x309, .i32⟩
  | .hbm, ⟨10, _⟩ => ⟨S2048x309, .i32⟩
  | .hbm, ⟨11, _⟩ => ⟨S_, .i32⟩
  | .hbm, ⟨12, _⟩ => ⟨S2048x309, .i32⟩
  | .hbm, ⟨13, _⟩ => ⟨S2048x309, .i1⟩
  | .hbm, ⟨14, _⟩ => ⟨S_, .i32⟩
  | .hbm, ⟨15, _⟩ => ⟨S2048x309, .i32⟩
  | .hbm, ⟨16, _⟩ => ⟨S2048x309, .i32⟩
  | .hbm, ⟨17, _⟩ => ⟨S2048x309, .i32⟩
  | .hbm, ⟨18, _⟩ => ⟨S2048x309x1, .i32⟩
  | .hbm, ⟨19, _⟩ => ⟨S16x4x2048x309, .f32⟩
  | .hbm, ⟨20, _⟩ => ⟨S16x8192x309, .f32⟩
  | _, _ => ⟨S16x4x160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  bcast_S_S309 : S_.BroadcastsInDim S309 (![] : Fin 0 → Fin S309.rank)
  bcast_S2048_S2048x1_0 : S2048.BroadcastsInDim S2048x1 (![0] : Fin 1 → Fin S2048x1.rank)
  bcast_S309_S1x309_1 : S309.BroadcastsInDim S1x309 (![1] : Fin 1 → Fin S1x309.rank)
  bcast_S2048x1_S2048x309_0_1 : S2048x1.BroadcastsInDim S2048x309 (![0, 1] : Fin 2 → Fin S2048x309.rank)
  bcast_S1x309_S2048x309_0_1 : S1x309.BroadcastsInDim S2048x309 (![0, 1] : Fin 2 → Fin S2048x309.rank)
  bcast_S_S2048x309 : S_.BroadcastsInDim S2048x309 (![] : Fin 0 → Fin S2048x309.rank)
  bcast_S2048x309_S2048x309x1_0_1 : S2048x309.BroadcastsInDim S2048x309x1 (![0, 1] : Fin 2 → Fin S2048x309x1.rank)
  shapeCasts_S16x4x2048x309_S16x8192x309 : S16x4x2048x309.ShapeCasts S16x8192x309
  gather_S16x4x160000_S2048x309x1_S16x4x2048x309_01_2_n_n_2_2_1641_wf : GatherDims.WF S16x4x160000 S2048x309x1 S16x4x2048x309 [0, 1] [2] [] [2] [] 2 ![16, 4, 1]

variable [Facts₀]

def gather_S16x4x160000_S2048x309x1_S16x4x2048x309_01_2_n_n_2_2_1641 : GatherDims S16x4x160000 S2048x309x1 S16x4x2048x309 where
  offsetDims := [0, 1]
  collapsedSliceDims := [2]
  operandBatchingDims := []
  startIndicesBatchingDims := []
  startIndexMap := [2]
  indexVectorDim := 2
  sliceSizes := ![16, 4, 1]
  wf := gather_S16x4x160000_S2048x309x1_S16x4x2048x309_01_2_n_n_2_2_1641_wf

class Facts : Prop extends Facts₀ where

variable [Facts]
-- ==== Proof.Spec.lean ====
/-
  The framing of a signal, as one function of the signal's array.

  A signal of 160000 samples per (batch, channel) pair is cut into 309 frames of 2048 samples, consecutive frames
  512 samples apart; the four channels' frames are laid one after the other along the second axis. Entry
  (b, r, n) of the result, with r = 2048 c + f, is sample f + 512 n of channel c of batch b:

      enframe x (b, r, n) = x (b, r / 2048, r % 2048 + 512 n).

  Both programs compute this function; nothing is added, multiplied or rounded, so the statement holds for any type
  of samples.
-/
import Idealize.ShloMosaic.Lib.ValueIdx

namespace Cert.Enframe

open Idealize.ShloMosaic Idealize.ShloMosaic.ValueIdx

/-- The coordinates of a rank-3 index are below the extents, written as the extents themselves. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- Row r of the result belongs to channel r / 2048, one of the four. -/
theorem chan_lt {r : Nat} (hr : r < 8192) : r / 2048 < 4 := by omega

/-- The last sample any frame reads is sample 2047 + 512 · 308 = 159743: inside the signal. -/
theorem sample_lt {r n : Nat} (hn : n < 309) : r % 2048 + 512 * n < 160000 := by omega

/-- The framed signal: entry (b, r, n) is sample r % 2048 + 512 n of channel r / 2048 of batch b. -/
def enframe {α : Type} (x : (⟨3, ![16, 4, 160000]⟩ : Shape).Idx → α) : (⟨3, ![16, 8192, 309]⟩ : Shape).Idx → α :=
  fun j => x (ix3 (n0 := 16) (n1 := 4) (n2 := 160000) ⟨(j 0).val, idx3_lt0 j⟩ ⟨(j 1).val / 2048, chan_lt (idx3_lt1 j)⟩
    ⟨(j 1).val % 2048 + 512 * (j 2).val, sample_lt (idx3_lt2 j)⟩)

theorem enframe_apply {α : Type} (x : (⟨3, ![16, 4, 160000]⟩ : Shape).Idx → α) (j : (⟨3, ![16, 8192, 309]⟩ : Shape).Idx) :
    enframe x j = x (ix3 (n0 := 16) (n1 := 4) (n2 := 160000) ⟨(j 0).val, idx3_lt0 j⟩ ⟨(j 1).val / 2048, chan_lt (idx3_lt1 j)⟩
      ⟨(j 1).val % 2048 + 512 * (j 2).val, sample_lt (idx3_lt2 j)⟩) := rfl

end Cert.Enframe
-- ==== Proof.RefValue.lean ====
/-
  The reference program computes the framed signal.

  The reference builds, with 32-bit integer operations, the table of sample positions idx[f, n] = f + 512 n
  (f < 2048 the position inside a frame, n < 309 the frame), wraps negative entries by adding 160000 (there are
  none: every entry is at most 2047 + 512 · 308 = 159743, far below 2^31), gathers x[b, c, idx[f, n]] for every batch
  b and channel c, and lays the four channels' frames one after the other: entry (b, 2048 c + f, n) of its result is
  x (b, c, f + 512 n), which is `enframe x`.

  Every operation but the gather is read at an index by the generated read-back of the reference's run; the gather
  is read here: along the one axis its start indices address it reads the start index as a signed integer clamped
  into [0, 159999], along the two other axes the result's own coordinates.
-/
import proofs.«154891_j66503273612039_2_alg».proof.Defs
import proofs.«154891_j66503273612039_2_alg».proof.Proof.Gen.ReferenceIdeal.Run
import proofs.«154891_j66503273612039_2_alg».proof.Proof.Gen.ReferenceIdeal.Read
import proofs.«154891_j66503273612039_2_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.TcCoe
open Idealize.ShloMosaic.ValueIdx Cert.Enframe

variable {F : FTy → Type} [FloatOps F]

/-! ## The table of sample positions, as 32-bit words -/

/-- The word f + 512 n computed in 32 bits is the number f + 512 n: nothing wraps. -/
theorem word_eq (f n : Nat) (hf : f < 2048) (hn : n < 309) :
    IntOp.addi (BitVec.ofNat 32 f) (IntOp.muli (BitVec.ofNat 32 n) 512#32) = BitVec.ofNat 32 (f + 512 * n) := by
  unfold IntOp.addi IntOp.muli
  apply BitVec.eq_of_toNat_eq
  simp only [BitVec.toNat_add, BitVec.toNat_mul, BitVec.toNat_ofNat]
  omega

/-- A number below 2^31, as a 32-bit word read signed, is itself. -/
theorem toInt_small (k : Nat) (hk : k < 2 ^ 31) : (BitVec.ofNat 32 k).toInt = (k : Int) := by
  rw [BitVec.toInt_eq_toNat_of_lt (by rw [BitVec.toNat_ofNat]; omega), BitVec.toNat_ofNat]
  have : k % 2 ^ 32 = k := Nat.mod_eq_of_lt (by omega)
  rw [this]

/-- Such a word is not negative. -/
theorem not_neg (k : Nat) (hk : k < 2 ^ 31) : IntOp.cmpi .slt (BitVec.ofNat 32 k) 0#32 = 0#1 := by
  unfold IntOp.cmpi
  have h : (BitVec.ofNat 32 k).slt 0#32 = false := by
    rw [BitVec.slt_eq_decide, toInt_small k hk]
    simp
  simp only [h]
  rfl

/-- The reference's position word — f + 512 n, with 160000 added were it negative — read signed is f + 512 n. -/
theorem start_word (f n : Nat) (hf : f < 2048) (hn : n < 309) :
    (Scalar.select (IntOp.cmpi .slt (IntOp.addi (BitVec.ofNat 32 f) (IntOp.muli (BitVec.ofNat 32 n) 512#32)) 0#32)
      (IntOp.addi (IntOp.addi (BitVec.ofNat 32 f) (IntOp.muli (BitVec.ofNat 32 n) 512#32)) 160000#32)
      (IntOp.addi (BitVec.ofNat 32 f) (IntOp.muli (BitVec.ofNat 32 n) 512#32))).toInt.toNat = f + 512 * n := by
  rw [word_eq f n hf hn, not_neg _ (by omega), select_zero, toInt_small _ (by omega)]
  exact Int.toNat_natCast _

/-- The table the reference hands the gather holds, at (f, n, 0), the position f + 512 n. -/
theorem start_at (y : S2048x309x1.Idx) :
    (Read.val_main_v14 (F := F) y).toInt.toNat = (y 0).val + 512 * (y 1).val := by
  rw [Read.val_main_v14_apply, Read.val_main_v13_apply, Read.val_main_v10_apply, Read.val_main_v12_apply,
    Read.val_main_v8_apply, Read.val_main_v6_apply, Read.val_main_v4_apply, Read.val_main_v3_apply,
    Read.val_main_v7_apply, Read.val_main_v5_apply, Read.val_main_v2_apply, Read.val_main_v0_apply,
    Read.val_main_v1_apply, Read.val_main_c_apply, Read.val_main_v9_apply, Read.val_main_c_0_apply,
    Read.val_main_v11_apply, Read.val_main_c_1_apply]
  exact start_word (y 0).val (y 1).val (y 0).isLt (y 1).isLt

/-! ## The gather at an index -/

/-- The gather's dimension numbers: the operand's first two axes are copied whole (the result's first two axes),
    its last axis is addressed by the start indices (one per entry of the table). -/
abbrev gd := gather_S16x4x160000_S2048x309x1_S16x4x2048x309_01_2_n_n_2_2_1641

/-- Along the operand's first axis the gather reads the result's own first coordinate, -/
theorem coord0 (y : S16x4x2048x309.Idx) (idx : IVec S2048x309x1 32) :
    GatherDims.start gd y idx 0 + GatherDims.batchCoord gd y 0 + GatherDims.offCoord gd y 0 = (y 0).val := by
  rw [GatherDims.batchCoord_eq_zero gd y 0 List.not_mem_nil]
  unfold GatherDims.start GatherDims.offCoord
  rw [dif_neg (by decide), dif_pos (by decide), Nat.add_zero, Nat.zero_add]
  rfl

/-- along the second its second, -/
theorem coord1 (y : S16x4x2048x309.Idx) (idx : IVec S2048x309x1 32) :
    GatherDims.start gd y idx 1 + GatherDims.batchCoord gd y 1 + GatherDims.offCoord gd y 1 = (y 1).val := by
  rw [GatherDims.batchCoord_eq_zero gd y 1 List.not_mem_nil]
  unfold GatherDims.start GatherDims.offCoord
  rw [dif_neg (by decide), dif_pos (by decide), Nat.add_zero, Nat.zero_add]
  rfl

/-- and along the third the start index the table holds at the result's last two coordinates, read signed and
    clamped into the axis. -/
theorem coord2 (y : S16x4x2048x309.Idx) (idx : IVec S2048x309x1 32) :
    GatherDims.start gd y idx 2 + GatherDims.batchCoord gd y 2 + GatherDims.offCoord gd y 2
      = min (idx (ix3 (n0 := 2048) (n1 := 309) (n2 := 1) ⟨(y 2).val, (y 2).isLt⟩ ⟨(y 3).val, (y 3).isLt⟩ ⟨0, Nat.one_pos⟩)).toInt.toNat 159999 := by
  rw [GatherDims.batchCoord_eq_zero gd y 2 List.not_mem_nil]
  unfold GatherDims.start GatherDims.offCoord
  rw [dif_pos (by decide), dif_neg (by decide)]
  simp only [Nat.add_zero]
  have hsi : GatherDims.siIdx gd y ⟨List.idxOf (2 : Fin 3) (GatherDims.startIndexMap gd),
      List.idxOf_lt_length_iff.2 (by decide)⟩
        = ix3 (n0 := 2048) (n1 := 309) (n2 := 1) ⟨(y 2).val, (y 2).isLt⟩ ⟨(y 3).val, (y 3).isLt⟩ ⟨0, Nat.one_pos⟩ := by
    funext b; refine Fin.ext ?_
    match b with
    | ⟨0, _⟩ => rfl
    | ⟨1, _⟩ => rfl
    | ⟨2, _⟩ => rfl
  rw [hsi]
  rfl

/-- THE GATHER READ AT (b, c, f, n): the operand at (b, c, ·) at the position the table holds at (f, n, 0). -/
theorem gather_apply {α : Type} (x : S16x4x160000.Idx → α) (idx : IVec S2048x309x1 32) (y : S16x4x2048x309.Idx) :
    Host.gather gd x idx y
      = x (ix3 (n0 := 16) (n1 := 4) (n2 := 160000) ⟨(y 0).val, (y 0).isLt⟩ ⟨(y 1).val, (y 1).isLt⟩
          ⟨min (idx (ix3 (n0 := 2048) (n1 := 309) (n2 := 1) ⟨(y 2).val, (y 2).isLt⟩ ⟨(y 3).val, (y 3).isLt⟩ ⟨0, Nat.one_pos⟩)).toInt.toNat 159999,
            by omega⟩) := by
  unfold Host.gather
  refine congrArg x (funext fun a => Fin.ext ?_)
  match a with
  | ⟨0, _⟩ => exact coord0 y idx
  | ⟨1, _⟩ => exact coord1 y idx
  | ⟨2, _⟩ => exact coord2 y idx

/-! ## The reference's result is the framed signal -/

/-- Entry (b, r, n) of the reference's result is the gather's entry (b, r / 2048, r % 2048, n) — the reshape keeps the
    row-major order — which is x (b, r / 2048, r % 2048 + 512 n). -/
theorem ref_enframe (x0 : (⟨S16x4x160000, .f32⟩ : BufTy).Contents (Elt F)) :
    Read.val_main_v16 (F := F) x0 = enframe x0 := by
  funext i
  rw [Read.val_main_v16_apply, enframe_apply]
  unfold Read.val_main_v15
  rw [gather_apply]
  refine congrArg x0 (funext fun a => Fin.ext ?_)
  have h0 : (i 0).val < 16 := (i 0).isLt
  have h1 : (i 1).val < 8192 := (i 1).isLt
  have h2 : (i 2).val < 309 := (i 2).isLt
  match a with
  | ⟨0, _⟩ =>
    show (((i 0).val * 8192 + (i 1).val) * 309 + (i 2).val) / 2531328 = (i 0).val
    omega
  | ⟨1, _⟩ =>
    show (((i 0).val * 8192 + (i 1).val) * 309 + (i 2).val) / 632832 % 4 = (i 1).val / 2048
    omega
  | ⟨2, _⟩ =>
    show min (BitVec.toInt (Read.val_main_v14 (F := F) _)).toNat 159999 = (i 1).val % 2048 + 512 * (i 2).val
    rw [start_at]
    show min ((((i 0).val * 8192 + (i 1).val) * 309 + (i 2).val) / 309 % 2048
        + 512 * ((((i 0).val * 8192 + (i 1).val) * 309 + (i 2).val) % 309)) 159999
      = (i 1).val % 2048 + 512 * (i 2).val
    omega

end Cert.ReferenceIdeal.RefValue

end
-- ==== Proof.LibSqueezedBlock.lean ====
/-
  A block with a leading unit axis, seen without it.

  A kernel handed a block of shape [1, d…] usually drops the unit axis before anything else (Pallas' `ref.at[0]`): it
  takes the slice of the whole block at zero offsets and squeezes it to [d…], and loads and stores through that.
  The squeezed memref has exactly the block's elements, and its entry z sits where the block's entry (0, z) does.
  So a buffer held by the block's own elements is, as the same assertion, held by the squeezed memref's own elements
  (`pointsTo_squeezed`), and what the block reads at (0, z) the squeezed memref reads at z (`read_squeezed`,
  `read_block_of_squeezed`).

  Why it matters for a body's triple: held by the SQUEEZED memref's own elements, every store of the body through the
  squeezed memref is a store through the very memref that holds the buffer, so a run of them is one list of pieces over
  the shape [d…]; when each piece is a block of one function of the index, the list reads back as that function
  (`View.canon_apply_of_pieces`).

  All statements are over any shape [1, d…], any memory space and element type, any value interpretation.
-/
import Idealize.ShloMosaic.Lib.Pipeline.Value

noncomputable section

namespace SqueezedBlock

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {sig : RefSig} {κ : Kind} {sp : Space} {e : EltTy} {n : Nat} {d : Fin n → Nat}

/-- The block's shape [1, d…] and the squeezed shape [d…]. -/
abbrev blk (n : Nat) (d : Fin n → Nat) : Shape := ⟨n + 1, Matrix.vecCons 1 d⟩
abbrev sq (n : Nat) (d : Fin n → Nat) : Shape := ⟨n, d⟩

/-- The block without its leading unit axis, as a kernel body spells it: the whole block sliced at offsets `off` (all
    zero, however the zeros are written), squeezed. -/
abbrev squeezed (M : Memref sig κ sp (blk n d) e) (off : Fin (n + 1) → Nat) (inb : ∀ a, off a + (blk n d).size a ≤ (blk n d).size a)
    (hr : ∀ a, (Rect.unit (s := blk n d) off (blk n d).size inb).stride a = 1)
    (hq : (Rect.unit (s := blk n d) off (blk n d).size inb).shape.Squeezes (sq n d)) : Memref sig κ sp (sq n d) e :=
  (M.slice (Rect.unit (s := blk n d) off (blk n d).size inb) hr).squeeze (sq n d) hq

/-- Entry z of the squeezed block sits where entry (0, z) of the block does. -/
theorem emb_squeezed (M : Memref sig κ sp (blk n d) e) {off : Fin (n + 1) → Nat} (hoff : off = fun _ => 0)
    (inb : ∀ a, off a + (blk n d).size a ≤ (blk n d).size a) (hr) (hq) (z : (sq n d).Idx) :
    (squeezed M off inb hr hq).view.emb z = M.view.emb (Fin.cons ⟨0, Nat.one_pos⟩ z) := by
  subst hoff
  show M.view.emb ((Rect.whole (blk n d)).emb (Shape.reshapeEquiv _ z)) = _
  rw [Rect.emb_whole_apply]
  exact congrArg M.view.emb (Shape.reshapeEquiv_cons_one _ z)

/-- The squeezed block has exactly the block's elements. -/
theorem set_squeezed (M : Memref sig κ sp (blk n d) e) {off : Fin (n + 1) → Nat} (hoff : off = fun _ => 0)
    (inb : ∀ a, off a + (blk n d).size a ≤ (blk n d).size a) (hr) (hq) :
    (squeezed M off inb hr hq).view.set = M.view.set := by
  show ((M.view.slice (Rect.unit (s := blk n d) off (blk n d).size inb)).reshape (sq n d) _).set = _
  rw [View.set_reshape, View.set_slice]
  unfold View.set
  exact congrArg (fun S => Finset.map M.view.emb S) (Finset.eq_univ_of_forall fun y => View.mem_set_unit_zero hoff inb y)

/-- What the squeezed block reads at z the block reads at (0, z). -/
theorem read_squeezed {Val : EltTy → Type} (M : Memref sig κ sp (blk n d) e) {off : Fin (n + 1) → Nat} (hoff : off = fun _ => 0)
    (inb : ∀ a, off a + (blk n d).size a ≤ (blk n d).size a) (hr) (hq) (g : M.view.ty.Contents Val) (z : (sq n d).Idx) :
    (squeezed M off inb hr hq).view.read Val g z = M.view.read Val g (Fin.cons ⟨0, Nat.one_pos⟩ z) := by
  show _root_.cast _ (g ((squeezed M off inb hr hq).view.emb z)) = _
  rw [emb_squeezed M hoff inb hr hq z]
  rfl

/-- An index of the block is (0, its other coordinates). -/
theorem cons_tail (y : (blk n d).Idx) : (Fin.cons ⟨0, Nat.one_pos⟩ (fun a => y a.succ) : (blk n d).Idx) = y := by
  funext a
  refine Fin.cases ?_ (fun b => ?_) a
  · refine Fin.ext ?_
    have h : (y 0).val < 1 := (y 0).isLt
    show 0 = (y 0).val
    omega
  · rfl

/-- So a buffer whose squeezed block reads `R` reads, as a block, `R` under the leading unit axis. -/
theorem read_block_of_squeezed {Val : EltTy → Type} (M : Memref sig κ sp (blk n d) e) {off : Fin (n + 1) → Nat} (hoff : off = fun _ => 0)
    (inb : ∀ a, off a + (blk n d).size a ≤ (blk n d).size a) (hr) (hq) (g : M.view.ty.Contents Val) (R : (sq n d).Idx → Val e)
    (h : (squeezed M off inb hr hq).view.read Val g = R) : M.view.read Val g = fun y => R (fun a => y a.succ) := by
  funext y
  subst h
  exact ((read_squeezed M hoff inb hr hq g (fun a => y a.succ)).trans (congrArg (M.view.read Val g) (cons_tail y))).symm

/-! ## The buffer, held either way -/

section Held

variable {nD : Nat} {τ : Topo} {Val : EltTy → Type}
variable {Ix : Type} [DecidableEq Ix] {Name : Type} [DecidableEq Name] {U : Type} [URA U] {Lvl : Type}

/-- Held by the block's own elements or by the squeezed block's, the buffer is one and the same assertion. -/
theorem pointsTo_squeezed (c : Thread nD τ) (M : Memref sig c.2.kind sp (blk n d) e) {off : Fin (n + 1) → Nat} (hoff : off = fun _ => 0)
    (inb : ∀ a, off a + (blk n d).size a ≤ (blk n d).size a) (hr) (hq) (q : PosShare TreeShare) (g : M.view.ty.Contents Val) :
    (M.view.loc c ↦[M.view.set]{q} g : sProp (MT nD τ sig Ix Val Name U Lvl))
      = ((squeezed M off inb hr hq).view.loc c ↦[(squeezed M off inb hr hq).view.set]{q} g) := by
  rw [set_squeezed M hoff inb hr hq]

end Held

end SqueezedBlock

end
-- ==== Proof.BodyKernel.lean ====
/-
  The body of the framing kernel, and the frame of the program that launches it.

  At grid point b the kernel is handed block b of the transposed signal — for each of the four channels c a
  [512, 312] array whose entry (h, k) is sample 512 k + h of the channel — and an output block of 8192 rows by 309
  frames. It never computes: for each channel c and each quarter q < 4 of a frame it copies the 309 consecutive
  columns q … q + 308 of channel c's array into rows 2048 c + 512 q … + 511 of the output block. So row r of the
  output block, at frame n, is entry (r / 2048, r % 512, (r / 512) % 4 + n) of the input block (`rowsOf`).

  The body reaches its operands through views: the output block with its leading unit axis dropped (`outM`), and
  channel c's array as channel c of the input block with the leading unit axis dropped (`chanM`). The sixteen
  stores all go through `outM`, whose elements are exactly the output buffer's: held that way, the sixteen stores
  are a list of row blocks that tile the 8192 rows, each a block of the one function `rowsOf`.

  Everything here is stated for any interpretation of the floats: the kernel only moves values.
-/
import proofs.«154891_j66503273612039_2_alg».proof.Proof.Gen.Kernel.Frame
import proofs.«154891_j66503273612039_2_alg».proof.Proof.Gen.Kernel.Skeleton
import proofs.«154891_j66503273612039_2_alg».proof.Proof.LibSqueezedBlock
import Idealize.ShloMosaic.Lib.ValueIdx
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves, as a function of the input block -/

/-- Row r of the output block at frame n: channel r / 2048, position r % 512 inside a quarter, chunk
    (r / 512) % 4 + n of the channel's array. -/
def rowsOf {α : Type} (x : S1x4x512x312.Idx → α) : S8192x309.Idx → α := fun y =>
  x (ix4 (n0 := 1) (n1 := 4) (n2 := 512) (n3 := 312) ⟨0, Nat.one_pos⟩
    ⟨(y 0).val / 2048, by have h : (y 0).val < 8192 := (y 0).isLt; omega⟩
    ⟨(y 0).val % 512, by omega⟩
    ⟨(y 0).val / 512 % 4 + (y 1).val, by have h : (y 1).val < 309 := (y 1).isLt; omega⟩)

/-- The output block: `rowsOf` under the block's leading unit axis. -/
def outBlk {α : Type} (x : S1x4x512x312.Idx → α) : S1x8192x309.Idx → α := fun y =>
  rowsOf x (ix2 (n0 := 8192) (n1 := 309) ⟨(y 1).val, (y 1).isLt⟩ ⟨(y 2).val, (y 2).isLt⟩)

/-! ## The views the body works through -/

/-- The output block without its leading unit axis: what every store of the body goes through. -/
abbrev outM (arg2 : Memref sig .tc .vmem S1x8192x309 .f32) : Memref sig .tc .vmem S8192x309 .f32 :=
  (arg2.slice (Rect.unit (s := S1x8192x309) ![0, 0, 0] S1x8192x309.size inb_S1x8192x309_S1x8192x309_0_0_0) (fun _ => rfl)).squeeze
    S8192x309 squeezes_S1x8192x309_S8192x309

/-- Channel c's [512, 312] array inside the input block: what the loads go through. -/
abbrev chanM (arg1 : Memref sig .tc .vmem S1x4x512x312 .f32) (c : Nat)
    (hc : ∀ a, (![c, 0, 0] : Fin 3 → Nat) a + S1x512x312.size a ≤ S4x512x312.size a) : Memref sig .tc .vmem S512x312 .f32 :=
  (((arg1.slice (Rect.unit (s := S1x4x512x312) ![0, 0, 0, 0] S1x4x512x312.size inb_S1x4x512x312_S1x4x512x312_0_0_0_0) (fun _ => rfl)).squeeze
      S4x512x312 squeezes_S1x4x512x312_S4x512x312).slice (Rect.unit (s := S4x512x312) ![c, 0, 0] S1x512x312.size hc) (fun _ => rfl)).squeeze
    S512x312 squeezes_S1x512x312_S512x312

/-- The output block's slice is taken at zero offsets. -/
theorem zeros3 : (![0, 0, 0] : Fin 3 → Nat) = fun _ => 0 :=
  funext fun a => by match a with | ⟨0, _⟩ => rfl | ⟨1, _⟩ => rfl | ⟨2, _⟩ => rfl

/-- Entry (h, k) of channel c's array sits where entry (0, c, h, k) of the input block does. -/
theorem chanM_emb (arg1 : Memref sig .tc .vmem S1x4x512x312 .f32) (c : Nat)
    (hc : ∀ a, (![c, 0, 0] : Fin 3 → Nat) a + S1x512x312.size a ≤ S4x512x312.size a) (hc4 : c < 4) (z : S512x312.Idx) :
    (chanM arg1 c hc).view.emb z
      = arg1.view.emb (ix4 (n0 := 1) (n1 := 4) (n2 := 512) (n3 := 312) ⟨0, Nat.one_pos⟩ ⟨c, hc4⟩ ⟨(z 0).val, (z 0).isLt⟩ ⟨(z 1).val, (z 1).isLt⟩) := by
  show arg1.view.emb ((Rect.unit (s := S1x4x512x312) ![0, 0, 0, 0] S1x4x512x312.size inb_S1x4x512x312_S1x4x512x312_0_0_0_0).emb
    (Shape.reshapeEquiv squeezes_S1x4x512x312_S4x512x312.numel_eq
      ((Rect.unit (s := S4x512x312) ![c, 0, 0] S1x512x312.size hc).emb
        (Shape.reshapeEquiv squeezes_S1x512x312_S512x312.numel_eq z)))) = _
  rw [Shape.reshapeEquiv_cons_one, Shape.reshapeEquiv_cons_one]
  refine congrArg arg1.view.emb (funext fun a => Fin.ext ?_)
  rw [Rect.emb_apply]
  match a with
  | ⟨0, _⟩ => rfl
  | ⟨1, _⟩ => show 0 + 1 * (c + 1 * 0) = c; omega
  | ⟨2, _⟩ => show 0 + 1 * (0 + 1 * (z 0).val) = (z 0).val; omega
  | ⟨3, _⟩ => show 0 + 1 * (0 + 1 * (z 1).val) = (z 1).val; omega

/-! ## What a load reads -/

/-- The 309 columns q … q + 308 of channel c's array, as the body loads them. -/
abbrev lanes (arg1 : Memref sig .tc .vmem S1x4x512x312 .f32) (f0 : arg1.view.ty.Contents (Elt F)) (c q : Nat)
    (hc : ∀ a, (![c, 0, 0] : Fin 3 → Nat) a + S1x512x312.size a ≤ S4x512x312.size a)
    (hq : ∀ a, (![0, q] : Fin 2 → Nat) a + S512x309.size a ≤ S512x312.size a) : Vec F S512x309 .f32 :=
  shapeCast S512x309 ((chanM arg1 c hc).view.readAt (Elt F) (Rect.unit (s := S512x312) ![0, q] S512x309.size hq).toLoadRect f0)
    shapeCasts_S512x309_S512x309

/-- Entry (h, n) of that load is entry (0, c, h, q + n) of the input block. -/
theorem lanes_apply (arg1 : Memref sig .tc .vmem S1x4x512x312 .f32) (f0 : arg1.view.ty.Contents (Elt F)) (c q : Nat)
    (hc : ∀ a, (![c, 0, 0] : Fin 3 → Nat) a + S1x512x312.size a ≤ S4x512x312.size a)
    (hq : ∀ a, (![0, q] : Fin 2 → Nat) a + S512x309.size a ≤ S512x312.size a) (hc4 : c < 4) (hq4 : q < 4) (x : S512x309.Idx) :
    lanes arg1 f0 c q hc hq x
      = arg1.view.read (Elt F) f0 (ix4 (n0 := 1) (n1 := 4) (n2 := 512) (n3 := 312) ⟨0, Nat.one_pos⟩ ⟨c, hc4⟩ ⟨(x 0).val, (x 0).isLt⟩
          ⟨q + (x 1).val, by have h : (x 1).val < 309 := (x 1).isLt; omega⟩) := by
  unfold lanes
  refine (congrFun (shapeCast_self (s := S512x309) _ _) x).trans ?_
  show _root_.cast _ (f0 ((chanM arg1 c hc).view.emb ((Rect.unit (s := S512x312) ![0, q] S512x309.size hq).emb x))) = _
  rw [chanM_emb arg1 c hc hc4]
  show arg1.view.read (Elt F) f0 _ = arg1.view.read (Elt F) f0 _
  refine congrArg (arg1.view.read (Elt F) f0) (funext fun a => Fin.ext ?_)
  match a with
  | ⟨0, _⟩ => rfl
  | ⟨1, _⟩ => rfl
  | ⟨2, _⟩ => show 0 + 1 * (x 0).val = (x 0).val; omega
  | ⟨3, _⟩ => show q + 1 * (x 1).val = q + (x 1).val; omega

/-- The store into rows 512 (4 c + q) … + 511 writes those rows of `rowsOf` of the input block. -/
theorem piece_rows (arg1 : Memref sig .tc .vmem S1x4x512x312 .f32) (f0 : arg1.view.ty.Contents (Elt F)) (c q : Nat)
    (hc : ∀ a, (![c, 0, 0] : Fin 3 → Nat) a + S1x512x312.size a ≤ S4x512x312.size a)
    (hq : ∀ a, (![0, q] : Fin 2 → Nat) a + S512x309.size a ≤ S512x312.size a) (hc4 : c < 4) (hq4 : q < 4)
    (r0 : Nat) (hr0 : r0 = 512 * (4 * c + q))
    (hr : ∀ a, (![r0, 0] : Fin 2 → Nat) a + S512x309.size a ≤ S8192x309.size a) (x : S512x309.Idx) :
    lanes arg1 f0 c q hc hq x
      = rowsOf (arg1.view.read (Elt F) f0) ((Rect.unit (s := S8192x309) ![r0, 0] S512x309.size hr).emb x) := by
  subst hr0
  rw [lanes_apply arg1 f0 c q hc hq hc4 hq4 x]
  unfold rowsOf
  refine congrArg (arg1.view.read (Elt F) f0) (funext fun a => Fin.ext ?_)
  have h0 : (x 0).val < 512 := (x 0).isLt
  match a with
  | ⟨0, _⟩ => rfl
  | ⟨1, _⟩ => show c = (512 * (4 * c + q) + 1 * (x 0).val) / 2048; omega
  | ⟨2, _⟩ => show (x 0).val = (512 * (4 * c + q) + 1 * (x 0).val) % 512; omega
  | ⟨3, _⟩ => show q + (x 1).val = (512 * (4 * c + q) + 1 * (x 0).val) / 512 % 4 + (0 + 1 * (x 1).val); omega

/-! ## The sixteen stores -/

/-- The body's stores through the squeezed output block, last first: rows 7680 … down to rows 0 …, each the columns
    q … q + 308 of a channel. -/
abbrev stores (arg1 : Memref sig .tc .vmem S1x4x512x312 .f32) (f0 : arg1.view.ty.Contents (Elt F)) :
    List (View.Piece (Elt F) S8192x309 .f32) :=
  [⟨Rect.unit (s := S8192x309) ![7680, 0] S512x309.size inb_S8192x309_S512x309_7680_0, lanes arg1 f0 3 3 inb_S4x512x312_S1x512x312_3_0_0 inb_S512x312_S512x309_0_3⟩,
   ⟨Rect.unit (s := S8192x309) ![7168, 0] S512x309.size inb_S8192x309_S512x309_7168_0, lanes arg1 f0 3 2 inb_S4x512x312_S1x512x312_3_0_0 inb_S512x312_S512x309_0_2⟩,
   ⟨Rect.unit (s := S8192x309) ![6656, 0] S512x309.size inb_S8192x309_S512x309_6656_0, lanes arg1 f0 3 1 inb_S4x512x312_S1x512x312_3_0_0 inb_S512x312_S512x309_0_1⟩,
   ⟨Rect.unit (s := S8192x309) ![6144, 0] S512x309.size inb_S8192x309_S512x309_6144_0, lanes arg1 f0 3 0 inb_S4x512x312_S1x512x312_3_0_0 inb_S512x312_S512x309_0_0⟩,
   ⟨Rect.unit (s := S8192x309) ![5632, 0] S512x309.size inb_S8192x309_S512x309_5632_0, lanes arg1 f0 2 3 inb_S4x512x312_S1x512x312_2_0_0 inb_S512x312_S512x309_0_3⟩,
   ⟨Rect.unit (s := S8192x309) ![5120, 0] S512x309.size inb_S8192x309_S512x309_5120_0, lanes arg1 f0 2 2 inb_S4x512x312_S1x512x312_2_0_0 inb_S512x312_S512x309_0_2⟩,
   ⟨Rect.unit (s := S8192x309) ![4608, 0] S512x309.size inb_S8192x309_S512x309_4608_0, lanes arg1 f0 2 1 inb_S4x512x312_S1x512x312_2_0_0 inb_S512x312_S512x309_0_1⟩,
   ⟨Rect.unit (s := S8192x309) ![4096, 0] S512x309.size inb_S8192x309_S512x309_4096_0, lanes arg1 f0 2 0 inb_S4x512x312_S1x512x312_2_0_0 inb_S512x312_S512x309_0_0⟩,
   ⟨Rect.unit (s := S8192x309) ![3584, 0] S512x309.size inb_S8192x309_S512x309_3584_0, lanes arg1 f0 1 3 inb_S4x512x312_S1x512x312_1_0_0 inb_S512x312_S512x309_0_3⟩,
   ⟨Rect.unit (s := S8192x309) ![3072, 0] S512x309.size inb_S8192x309_S512x309_3072_0, lanes arg1 f0 1 2 inb_S4x512x312_S1x512x312_1_0_0 inb_S512x312_S512x309_0_2⟩,
   ⟨Rect.unit (s := S8192x309) ![2560, 0] S512x309.size inb_S8192x309_S512x309_2560_0, lanes arg1 f0 1 1 inb_S4x512x312_S1x512x312_1_0_0 inb_S512x312_S512x309_0_1⟩,
   ⟨Rect.unit (s := S8192x309) ![2048, 0] S512x309.size inb_S8192x309_S512x309_2048_0, lanes arg1 f0 1 0 inb_S4x512x312_S1x512x312_1_0_0 inb_S512x312_S512x309_0_0⟩,
   ⟨Rect.unit (s := S8192x309) ![1536, 0] S512x309.size inb_S8192x309_S512x309_1536_0, lanes arg1 f0 0 3 inb_S4x512x312_S1x512x312_0_0_0 inb_S512x312_S512x309_0_3⟩,
   ⟨Rect.unit (s := S8192x309) ![1024, 0] S512x309.size inb_S8192x309_S512x309_1024_0, lanes arg1 f0 0 2 inb_S4x512x312_S1x512x312_0_0_0 inb_S512x312_S512x309_0_2⟩,
   ⟨Rect.unit (s := S8192x309) ![512, 0] S512x309.size inb_S8192x309_S512x309_512_0, lanes arg1 f0 0 1 inb_S4x512x312_S1x512x312_0_0_0 inb_S512x312_S512x309_0_1⟩,
   ⟨Rect.unit (s := S8192x309) ![0, 0] S512x309.size inb_S8192x309_S512x309_0_0, lanes arg1 f0 0 0 inb_S4x512x312_S1x512x312_0_0_0 inb_S512x312_S512x309_0_0⟩]

/-- Sixteen blocks of 512 rows tile the 8192 rows (checked by evaluation, whatever the payloads). -/
theorem stores_cover (p0 p1 p2 p3 p4 p5 p6 p7 p8 p9 p10 p11 p12 p13 p14 p15 : Vec F S512x309 .f32) (y : S8192x309.Idx) :
    ∃ pc ∈ ([⟨Rect.unit (s := S8192x309) ![7680, 0] S512x309.size inb_S8192x309_S512x309_7680_0, p15⟩,
        ⟨Rect.unit (s := S8192x309) ![7168, 0] S512x309.size inb_S8192x309_S512x309_7168_0, p14⟩,
        ⟨Rect.unit (s := S8192x309) ![6656, 0] S512x309.size inb_S8192x309_S512x309_6656_0, p13⟩,
        ⟨Rect.unit (s := S8192x309) ![6144, 0] S512x309.size inb_S8192x309_S512x309_6144_0, p12⟩,
        ⟨Rect.unit (s := S8192x309) ![5632, 0] S512x309.size inb_S8192x309_S512x309_5632_0, p11⟩,
        ⟨Rect.unit (s := S8192x309) ![5120, 0] S512x309.size inb_S8192x309_S512x309_5120_0, p10⟩,
        ⟨Rect.unit (s := S8192x309) ![4608, 0] S512x309.size inb_S8192x309_S512x309_4608_0, p9⟩,
        ⟨Rect.unit (s := S8192x309) ![4096, 0] S512x309.size inb_S8192x309_S512x309_4096_0, p8⟩,
        ⟨Rect.unit (s := S8192x309) ![3584, 0] S512x309.size inb_S8192x309_S512x309_3584_0, p7⟩,
        ⟨Rect.unit (s := S8192x309) ![3072, 0] S512x309.size inb_S8192x309_S512x309_3072_0, p6⟩,
        ⟨Rect.unit (s := S8192x309) ![2560, 0] S512x309.size inb_S8192x309_S512x309_2560_0, p5⟩,
        ⟨Rect.unit (s := S8192x309) ![2048, 0] S512x309.size inb_S8192x309_S512x309_2048_0, p4⟩,
        ⟨Rect.unit (s := S8192x309) ![1536, 0] S512x309.size inb_S8192x309_S512x309_1536_0, p3⟩,
        ⟨Rect.unit (s := S8192x309) ![1024, 0] S512x309.size inb_S8192x309_S512x309_1024_0, p2⟩,
        ⟨Rect.unit (s := S8192x309) ![512, 0] S512x309.size inb_S8192x309_S512x309_512_0, p1⟩,
        ⟨Rect.unit (s := S8192x309) ![0, 0] S512x309.size inb_S8192x309_S512x309_0_0, p0⟩] : List (View.Piece (Elt F) S8192x309 .f32)),
      y ∈ pc.1.set :=
  View.cover_of_tiledL (s := S8192x309) _ S512x309.size (by sl_kernel_rfl) y

/-- Every store writes its rows of `rowsOf` of the input block. -/
theorem stores_rows (arg1 : Memref sig .tc .vmem S1x4x512x312 .f32) (f0 : arg1.view.ty.Contents (Elt F)) :
    ∀ p ∈ stores arg1 f0, ∀ x : p.1.shape.Idx, p.2 x = rowsOf (arg1.view.read (Elt F) f0) (p.1.emb x) := by
  intro p hp
  simp only [List.mem_cons, List.mem_nil_iff, or_false] at hp
  rcases hp with rfl | rfl | rfl | rfl | rfl | rfl | rfl | rfl | rfl | rfl | rfl | rfl | rfl | rfl | rfl | rfl
  · exact fun x => piece_rows arg1 f0 3 3 _ _ (by decide) (by decide) 7680 rfl inb_S8192x309_S512x309_7680_0 x
  · exact fun x => piece_rows arg1 f0 3 2 _ _ (by decide) (by decide) 7168 rfl inb_S8192x309_S512x309_7168_0 x
  · exact fun x => piece_rows arg1 f0 3 1 _ _ (by decide) (by decide) 6656 rfl inb_S8192x309_S512x309_6656_0 x
  · exact fun x => piece_rows arg1 f0 3 0 _ _ (by decide) (by decide) 6144 rfl inb_S8192x309_S512x309_6144_0 x
  · exact fun x => piece_rows arg1 f0 2 3 _ _ (by decide) (by decide) 5632 rfl inb_S8192x309_S512x309_5632_0 x
  · exact fun x => piece_rows arg1 f0 2 2 _ _ (by decide) (by decide) 5120 rfl inb_S8192x309_S512x309_5120_0 x
  · exact fun x => piece_rows arg1 f0 2 1 _ _ (by decide) (by decide) 4608 rfl inb_S8192x309_S512x309_4608_0 x
  · exact fun x => piece_rows arg1 f0 2 0 _ _ (by decide) (by decide) 4096 rfl inb_S8192x309_S512x309_4096_0 x
  · exact fun x => piece_rows arg1 f0 1 3 _ _ (by decide) (by decide) 3584 rfl inb_S8192x309_S512x309_3584_0 x
  · exact fun x => piece_rows arg1 f0 1 2 _ _ (by decide) (by decide) 3072 rfl inb_S8192x309_S512x309_3072_0 x
  · exact fun x => piece_rows arg1 f0 1 1 _ _ (by decide) (by decide) 2560 rfl inb_S8192x309_S512x309_2560_0 x
  · exact fun x => piece_rows arg1 f0 1 0 _ _ (by decide) (by decide) 2048 rfl inb_S8192x309_S512x309_2048_0 x
  · exact fun x => piece_rows arg1 f0 0 3 _ _ (by decide) (by decide) 1536 rfl inb_S8192x309_S512x309_1536_0 x
  · exact fun x => piece_rows arg1 f0 0 2 _ _ (by decide) (by decide) 1024 rfl inb_S8192x309_S512x309_1024_0 x
  · exact fun x => piece_rows arg1 f0 0 1 _ _ (by decide) (by decide) 512 rfl inb_S8192x309_S512x309_512_0 x
  · exact fun x => piece_rows arg1 f0 0 0 _ _ (by decide) (by decide) 0 rfl inb_S8192x309_S512x309_0_0 x

/-- So the squeezed output block, after the stores, reads `rowsOf` of the input block. -/
theorem read_stores (arg1 : Memref sig .tc .vmem S1x4x512x312 .f32) (f0 : arg1.view.ty.Contents (Elt F))
    (arg2 : Memref sig .tc .vmem S1x8192x309 .f32) (f2 : (outM arg2).view.ty.Contents (Elt F)) :
    (outM arg2).view.read (Elt F) ((outM arg2).view.writes (Elt F) f2 (stores arg1 f0)) = rowsOf (arg1.view.read (Elt F) f0) := by
  rw [View.read_writes_eq_canon _ _ _ (stores_cover _ _ _ _ _ _ _ _ _ _ _ _ _ _ _ _)]
  funext y
  exact View.canon_apply_of_pieces (rowsOf (arg1.view.read (Elt F) f0)) (stores arg1 f0) (stores_rows arg1 f0) y
    (stores_cover _ _ _ _ _ _ _ _ _ _ _ _ _ _ _ _ y)

/-! ## Reading the output block through either memref -/

/-- Held by the block's elements or by the squeezed block's, the buffer is the same assertion. -/
theorem own_out (c : Dev nD) (arg2 : Memref sig .tc .vmem S1x8192x309 .f32) (g : arg2.view.ty.Contents (Elt F)) :
    (arg2.view.loc (c : Thread nD τ) ↦[arg2.view.set]{fullShare} g : sProp 𝕄)
      = ((outM arg2).view.loc (c : Thread nD τ) ↦[(outM arg2).view.set]{fullShare} g) :=
  SqueezedBlock.pointsTo_squeezed (n := 2) (d := ![8192, 309]) (c : Thread nD τ) arg2 zeros3 _ _ _ fullShare g

/-- So a buffer whose squeezed block reads `rowsOf x` reads, as a block, `outBlk x`. -/
theorem read_block (arg2 : Memref sig .tc .vmem S1x8192x309 .f32) (g : arg2.view.ty.Contents (Elt F)) (x : Vec F S1x4x512x312 .f32)
    (h : (outM arg2).view.read (Elt F) g = rowsOf x) : arg2.view.read (Elt F) g = outBlk x := by
  rw [SqueezedBlock.read_block_of_squeezed (n := 2) (d := ![8192, 309]) arg2 zeros3 _ _ _ g (rowsOf x) h]
  funext y
  unfold outBlk
  refine congrArg (rowsOf x) (funext fun a => Fin.ext ?_)
  match a with
  | ⟨0, _⟩ => rfl
  | ⟨1, _⟩ => rfl

/-! ## The body's triple -/

set_option maxHeartbeats 1000000 in
/-- The body run: the input buffer held at `f0`, the output buffer by the squeezed block's elements at anything,
    it returns the input as it was and the output at the sixteen stores written over what it held. -/
theorem sound_core (c : Dev nD) (E : Set ℕ) (i : grid0.Coords) (arg1 : Memref sig .tc .vmem S1x4x512x312 .f32) (harg1 : arg1.IsWhole)
    (arg2 : Memref sig .tc .vmem S1x8192x309 .f32) (harg2 : arg2.IsWhole)
    (f0 : arg1.view.ty.Contents (Elt F)) (f2 : (outM arg2).view.ty.Contents (Elt F)) (K : PUnit → sProp 𝕄) :
    iprop((arg1.view.loc (c : Thread nD τ) ↦[arg1.view.set]{fullShare} f0)
        ∗ ((outM arg2).view.loc (c : Thread nD τ) ↦[(outM arg2).view.set]{fullShare} f2)
        ∗ (iprop((arg1.view.loc (c : Thread nD τ) ↦[arg1.view.set]{fullShare} f0)
            ∗ ((outM arg2).view.loc (c : Thread nD τ) ↦[(outM arg2).view.set]{fullShare}
                (outM arg2).view.writes (Elt F) f2 (stores arg1 f0))) -∗ K ⟨⟩))
      ⊢ wp frame (wpE (defs₀ (F := F)) Variants.none c none) E (cc0__enframe_kernel i arg1 harg1 arg2 harg2) K := by
  iintro ⟨H0, H2, Hk⟩
  sl_unfold [cc0__enframe_kernel]
  sl_exec
  sl_step
  iapply Hk
  isplitl [H0]
  · iexact H0
  iexact H2

/-- The body on whole staging memrefs: the input's at the block `x0`, the output's at anything, it returns the input's
    as it was and the output's at `outBlk x0`. -/
theorem sound_kernel (c : Dev nD) (E : Set ℕ) (i : grid0.Coords) (arg1 : Memref sig .tc .vmem S1x4x512x312 .f32) (harg1 : arg1.IsWhole)
    (arg2 : Memref sig .tc .vmem S1x8192x309 .f32) (harg2 : arg2.IsWhole) (x0 : Vec F S1x4x512x312 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlk x0)) -∗ K ⟨⟩))
      ⊢ wp frame (wpE (defs₀ (F := F)) Variants.none c none) E (cc0__enframe_kernel i arg1 harg1 arg2 harg2) K := by
  unfold owns
  iintro ⟨⟨%f0, %hf0, H0⟩, ⟨%d2, %f2, -, H2⟩, Hk⟩
  subst hf0
  ihave H2' := (Entails.of_eq (own_out c arg2 f2)) $$ H2
  iapply (sound_core c E i arg1 harg1 arg2 harg2 f0 f2 K)
  isplitl [H0]; · iexact H0
  isplitl [H2']; · iexact H2'
  iintro ⟨H0, H2⟩
  iapply Hk
  isplitl [H0]
  · iexists f0; isplitr; · ipureintro; rfl
    iexact H0
  iexists ((outM arg2).view.writes (Elt F) f2 (stores arg1 f0)); isplitr
  · ipureintro; exact read_block arg2 _ _ (read_stores arg1 f0 arg2 f2)
  iapply (Entails.of_eq (own_out c arg2 _).symm)
  iexact H2

/-! ## The pipeline's proof data -/

variable (m : (ℓ : Loc nD τ sig) → Buf (Elt F) ℓ) (ρ : Dev nD → PrngReg)

/-- The proof data of the one pipeline on core `c`: the arrays as the region finds them; after the body at point `t` the
    input's buffer at its block and the output's at `outBlk` of it; nothing of its own kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlk (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outBlk (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ _ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program runs and leaves its argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.Body.lean ====
/-
  The body of the framing kernel, and the frame of the program that launches it.

  At grid point b the kernel is handed block b of the transposed signal — for each of the four channels c a
  [512, 312] array whose entry (h, k) is sample 512 k + h of the channel — and an output block of 8192 rows by 309
  frames. It never computes: for each channel c and each quarter q < 4 of a frame it copies the 309 consecutive
  columns q … q + 308 of channel c's array into rows 2048 c + 512 q … + 511 of the output block. So row r of the
  output block, at frame n, is entry (r / 2048, r % 512, (r / 512) % 4 + n) of the input block (`rowsOf`).

  The body reaches its operands through views: the output block with its leading unit axis dropped (`outM`), and
  channel c's array as channel c of the input block with the leading unit axis dropped (`chanM`). The sixteen
  stores all go through `outM`, whose elements are exactly the output buffer's: held that way, the sixteen stores
  are a list of row blocks that tile the 8192 rows, each a block of the one function `rowsOf`.

  Everything here is stated for any interpretation of the floats: the kernel only moves values.
-/
import proofs.«154891_j66503273612039_2_alg».proof.Proof.Gen.KernelIdeal.Frame
import proofs.«154891_j66503273612039_2_alg».proof.Proof.Gen.KernelIdeal.Skeleton
import proofs.«154891_j66503273612039_2_alg».proof.Proof.LibSqueezedBlock
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves, as a function of the input block -/

/-- Row r of the output block at frame n: channel r / 2048, position r % 512 inside a quarter, chunk
    (r / 512) % 4 + n of the channel's array. -/
def rowsOf {α : Type} (x : S1x4x512x312.Idx → α) : S8192x309.Idx → α := fun y =>
  x (ix4 (n0 := 1) (n1 := 4) (n2 := 512) (n3 := 312) ⟨0, Nat.one_pos⟩
    ⟨(y 0).val / 2048, by have h : (y 0).val < 8192 := (y 0).isLt; omega⟩
    ⟨(y 0).val % 512, by omega⟩
    ⟨(y 0).val / 512 % 4 + (y 1).val, by have h : (y 1).val < 309 := (y 1).isLt; omega⟩)

/-- The output block: `rowsOf` under the block's leading unit axis. -/
def outBlk {α : Type} (x : S1x4x512x312.Idx → α) : S1x8192x309.Idx → α := fun y =>
  rowsOf x (ix2 (n0 := 8192) (n1 := 309) ⟨(y 1).val, (y 1).isLt⟩ ⟨(y 2).val, (y 2).isLt⟩)

/-! ## The views the body works through -/

/-- The output block without its leading unit axis: what every store of the body goes through. -/
abbrev outM (arg2 : Memref sig .tc .vmem S1x8192x309 .f32) : Memref sig .tc .vmem S8192x309 .f32 :=
  (arg2.slice (Rect.unit (s := S1x8192x309) ![0, 0, 0] S1x8192x309.size inb_S1x8192x309_S1x8192x309_0_0_0) (fun _ => rfl)).squeeze
    S8192x309 squeezes_S1x8192x309_S8192x309

/-- Channel c's [512, 312] array inside the input block: what the loads go through. -/
abbrev chanM (arg1 : Memref sig .tc .vmem S1x4x512x312 .f32) (c : Nat)
    (hc : ∀ a, (![c, 0, 0] : Fin 3 → Nat) a + S1x512x312.size a ≤ S4x512x312.size a) : Memref sig .tc .vmem S512x312 .f32 :=
  (((arg1.slice (Rect.unit (s := S1x4x512x312) ![0, 0, 0, 0] S1x4x512x312.size inb_S1x4x512x312_S1x4x512x312_0_0_0_0) (fun _ => rfl)).squeeze
      S4x512x312 squeezes_S1x4x512x312_S4x512x312).slice (Rect.unit (s := S4x512x312) ![c, 0, 0] S1x512x312.size hc) (fun _ => rfl)).squeeze
    S512x312 squeezes_S1x512x312_S512x312

/-- The output block's slice is taken at zero offsets. -/
theorem zeros3 : (![0, 0, 0] : Fin 3 → Nat) = fun _ => 0 :=
  funext fun a => by match a with | ⟨0, _⟩ => rfl | ⟨1, _⟩ => rfl | ⟨2, _⟩ => rfl

/-- Entry (h, k) of channel c's array sits where entry (0, c, h, k) of the input block does. -/
theorem chanM_emb (arg1 : Memref sig .tc .vmem S1x4x512x312 .f32) (c : Nat)
    (hc : ∀ a, (![c, 0, 0] : Fin 3 → Nat) a + S1x512x312.size a ≤ S4x512x312.size a) (hc4 : c < 4) (z : S512x312.Idx) :
    (chanM arg1 c hc).view.emb z
      = arg1.view.emb (ix4 (n0 := 1) (n1 := 4) (n2 := 512) (n3 := 312) ⟨0, Nat.one_pos⟩ ⟨c, hc4⟩ ⟨(z 0).val, (z 0).isLt⟩ ⟨(z 1).val, (z 1).isLt⟩) := by
  show arg1.view.emb ((Rect.unit (s := S1x4x512x312) ![0, 0, 0, 0] S1x4x512x312.size inb_S1x4x512x312_S1x4x512x312_0_0_0_0).emb
    (Shape.reshapeEquiv squeezes_S1x4x512x312_S4x512x312.numel_eq
      ((Rect.unit (s := S4x512x312) ![c, 0, 0] S1x512x312.size hc).emb
        (Shape.reshapeEquiv squeezes_S1x512x312_S512x312.numel_eq z)))) = _
  rw [Shape.reshapeEquiv_cons_one, Shape.reshapeEquiv_cons_one]
  refine congrArg arg1.view.emb (funext fun a => Fin.ext ?_)
  rw [Rect.emb_apply]
  match a with
  | ⟨0, _⟩ => rfl
  | ⟨1, _⟩ => show 0 + 1 * (c + 1 * 0) = c; omega
  | ⟨2, _⟩ => show 0 + 1 * (0 + 1 * (z 0).val) = (z 0).val; omega
  | ⟨3, _⟩ => show 0 + 1 * (0 + 1 * (z 1).val) = (z 1).val; omega

/-! ## What a load reads -/

/-- The 309 columns q … q + 308 of channel c's array, as the body loads them. -/
abbrev lanes (arg1 : Memref sig .tc .vmem S1x4x512x312 .f32) (f0 : arg1.view.ty.Contents (Elt F)) (c q : Nat)
    (hc : ∀ a, (![c, 0, 0] : Fin 3 → Nat) a + S1x512x312.size a ≤ S4x512x312.size a)
    (hq : ∀ a, (![0, q] : Fin 2 → Nat) a + S512x309.size a ≤ S512x312.size a) : Vec F S512x309 .f32 :=
  shapeCast S512x309 ((chanM arg1 c hc).view.readAt (Elt F) (Rect.unit (s := S512x312) ![0, q] S512x309.size hq).toLoadRect f0)
    shapeCasts_S512x309_S512x309

/-- Entry (h, n) of that load is entry (0, c, h, q + n) of the input block. -/
theorem lanes_apply (arg1 : Memref sig .tc .vmem S1x4x512x312 .f32) (f0 : arg1.view.ty.Contents (Elt F)) (c q : Nat)
    (hc : ∀ a, (![c, 0, 0] : Fin 3 → Nat) a + S1x512x312.size a ≤ S4x512x312.size a)
    (hq : ∀ a, (![0, q] : Fin 2 → Nat) a + S512x309.size a ≤ S512x312.size a) (hc4 : c < 4) (hq4 : q < 4) (x : S512x309.Idx) :
    lanes arg1 f0 c q hc hq x
      = arg1.view.read (Elt F) f0 (ix4 (n0 := 1) (n1 := 4) (n2 := 512) (n3 := 312) ⟨0, Nat.one_pos⟩ ⟨c, hc4⟩ ⟨(x 0).val, (x 0).isLt⟩
          ⟨q + (x 1).val, by have h : (x 1).val < 309 := (x 1).isLt; omega⟩) := by
  unfold lanes
  refine (congrFun (shapeCast_self (s := S512x309) _ _) x).trans ?_
  show _root_.cast _ (f0 ((chanM arg1 c hc).view.emb ((Rect.unit (s := S512x312) ![0, q] S512x309.size hq).emb x))) = _
  rw [chanM_emb arg1 c hc hc4]
  show arg1.view.read (Elt F) f0 _ = arg1.view.read (Elt F) f0 _
  refine congrArg (arg1.view.read (Elt F) f0) (funext fun a => Fin.ext ?_)
  match a with
  | ⟨0, _⟩ => rfl
  | ⟨1, _⟩ => rfl
  | ⟨2, _⟩ => show 0 + 1 * (x 0).val = (x 0).val; omega
  | ⟨3, _⟩ => show q + 1 * (x 1).val = q + (x 1).val; omega

/-- The store into rows 512 (4 c + q) … + 511 writes those rows of `rowsOf` of the input block. -/
theorem piece_rows (arg1 : Memref sig .tc .vmem S1x4x512x312 .f32) (f0 : arg1.view.ty.Contents (Elt F)) (c q : Nat)
    (hc : ∀ a, (![c, 0, 0] : Fin 3 → Nat) a + S1x512x312.size a ≤ S4x512x312.size a)
    (hq : ∀ a, (![0, q] : Fin 2 → Nat) a + S512x309.size a ≤ S512x312.size a) (hc4 : c < 4) (hq4 : q < 4)
    (r0 : Nat) (hr0 : r0 = 512 * (4 * c + q))
    (hr : ∀ a, (![r0, 0] : Fin 2 → Nat) a + S512x309.size a ≤ S8192x309.size a) (x : S512x309.Idx) :
    lanes arg1 f0 c q hc hq x
      = rowsOf (arg1.view.read (Elt F) f0) ((Rect.unit (s := S8192x309) ![r0, 0] S512x309.size hr).emb x) := by
  subst hr0
  rw [lanes_apply arg1 f0 c q hc hq hc4 hq4 x]
  unfold rowsOf
  refine congrArg (arg1.view.read (Elt F) f0) (funext fun a => Fin.ext ?_)
  have h0 : (x 0).val < 512 := (x 0).isLt
  match a with
  | ⟨0, _⟩ => rfl
  | ⟨1, _⟩ => show c = (512 * (4 * c + q) + 1 * (x 0).val) / 2048; omega
  | ⟨2, _⟩ => show (x 0).val = (512 * (4 * c + q) + 1 * (x 0).val) % 512; omega
  | ⟨3, _⟩ => show q + (x 1).val = (512 * (4 * c + q) + 1 * (x 0).val) / 512 % 4 + (0 + 1 * (x 1).val); omega

/-! ## The sixteen stores -/

/-- The body's stores through the squeezed output block, last first: rows 7680 … down to rows 0 …, each the columns
    q … q + 308 of a channel. -/
abbrev stores (arg1 : Memref sig .tc .vmem S1x4x512x312 .f32) (f0 : arg1.view.ty.Contents (Elt F)) :
    List (View.Piece (Elt F) S8192x309 .f32) :=
  [⟨Rect.unit (s := S8192x309) ![7680, 0] S512x309.size inb_S8192x309_S512x309_7680_0, lanes arg1 f0 3 3 inb_S4x512x312_S1x512x312_3_0_0 inb_S512x312_S512x309_0_3⟩,
   ⟨Rect.unit (s := S8192x309) ![7168, 0] S512x309.size inb_S8192x309_S512x309_7168_0, lanes arg1 f0 3 2 inb_S4x512x312_S1x512x312_3_0_0 inb_S512x312_S512x309_0_2⟩,
   ⟨Rect.unit (s := S8192x309) ![6656, 0] S512x309.size inb_S8192x309_S512x309_6656_0, lanes arg1 f0 3 1 inb_S4x512x312_S1x512x312_3_0_0 inb_S512x312_S512x309_0_1⟩,
   ⟨Rect.unit (s := S8192x309) ![6144, 0] S512x309.size inb_S8192x309_S512x309_6144_0, lanes arg1 f0 3 0 inb_S4x512x312_S1x512x312_3_0_0 inb_S512x312_S512x309_0_0⟩,
   ⟨Rect.unit (s := S8192x309) ![5632, 0] S512x309.size inb_S8192x309_S512x309_5632_0, lanes arg1 f0 2 3 inb_S4x512x312_S1x512x312_2_0_0 inb_S512x312_S512x309_0_3⟩,
   ⟨Rect.unit (s := S8192x309) ![5120, 0] S512x309.size inb_S8192x309_S512x309_5120_0, lanes arg1 f0 2 2 inb_S4x512x312_S1x512x312_2_0_0 inb_S512x312_S512x309_0_2⟩,
   ⟨Rect.unit (s := S8192x309) ![4608, 0] S512x309.size inb_S8192x309_S512x309_4608_0, lanes arg1 f0 2 1 inb_S4x512x312_S1x512x312_2_0_0 inb_S512x312_S512x309_0_1⟩,
   ⟨Rect.unit (s := S8192x309) ![4096, 0] S512x309.size inb_S8192x309_S512x309_4096_0, lanes arg1 f0 2 0 inb_S4x512x312_S1x512x312_2_0_0 inb_S512x312_S512x309_0_0⟩,
   ⟨Rect.unit (s := S8192x309) ![3584, 0] S512x309.size inb_S8192x309_S512x309_3584_0, lanes arg1 f0 1 3 inb_S4x512x312_S1x512x312_1_0_0 inb_S512x312_S512x309_0_3⟩,
   ⟨Rect.unit (s := S8192x309) ![3072, 0] S512x309.size inb_S8192x309_S512x309_3072_0, lanes arg1 f0 1 2 inb_S4x512x312_S1x512x312_1_0_0 inb_S512x312_S512x309_0_2⟩,
   ⟨Rect.unit (s := S8192x309) ![2560, 0] S512x309.size inb_S8192x309_S512x309_2560_0, lanes arg1 f0 1 1 inb_S4x512x312_S1x512x312_1_0_0 inb_S512x312_S512x309_0_1⟩,
   ⟨Rect.unit (s := S8192x309) ![2048, 0] S512x309.size inb_S8192x309_S512x309_2048_0, lanes arg1 f0 1 0 inb_S4x512x312_S1x512x312_1_0_0 inb_S512x312_S512x309_0_0⟩,
   ⟨Rect.unit (s := S8192x309) ![1536, 0] S512x309.size inb_S8192x309_S512x309_1536_0, lanes arg1 f0 0 3 inb_S4x512x312_S1x512x312_0_0_0 inb_S512x312_S512x309_0_3⟩,
   ⟨Rect.unit (s := S8192x309) ![1024, 0] S512x309.size inb_S8192x309_S512x309_1024_0, lanes arg1 f0 0 2 inb_S4x512x312_S1x512x312_0_0_0 inb_S512x312_S512x309_0_2⟩,
   ⟨Rect.unit (s := S8192x309) ![512, 0] S512x309.size inb_S8192x309_S512x309_512_0, lanes arg1 f0 0 1 inb_S4x512x312_S1x512x312_0_0_0 inb_S512x312_S512x309_0_1⟩,
   ⟨Rect.unit (s := S8192x309) ![0, 0] S512x309.size inb_S8192x309_S512x309_0_0, lanes arg1 f0 0 0 inb_S4x512x312_S1x512x312_0_0_0 inb_S512x312_S512x309_0_0⟩]

/-- Sixteen blocks of 512 rows tile the 8192 rows (checked by evaluation, whatever the payloads). -/
theorem stores_cover (p0 p1 p2 p3 p4 p5 p6 p7 p8 p9 p10 p11 p12 p13 p14 p15 : Vec F S512x309 .f32) (y : S8192x309.Idx) :
    ∃ pc ∈ ([⟨Rect.unit (s := S8192x309) ![7680, 0] S512x309.size inb_S8192x309_S512x309_7680_0, p15⟩,
        ⟨Rect.unit (s := S8192x309) ![7168, 0] S512x309.size inb_S8192x309_S512x309_7168_0, p14⟩,
        ⟨Rect.unit (s := S8192x309) ![6656, 0] S512x309.size inb_S8192x309_S512x309_6656_0, p13⟩,
        ⟨Rect.unit (s := S8192x309) ![6144, 0] S512x309.size inb_S8192x309_S512x309_6144_0, p12⟩,
        ⟨Rect.unit (s := S8192x309) ![5632, 0] S512x309.size inb_S8192x309_S512x309_5632_0, p11⟩,
        ⟨Rect.unit (s := S8192x309) ![5120, 0] S512x309.size inb_S8192x309_S512x309_5120_0, p10⟩,
        ⟨Rect.unit (s := S8192x309) ![4608, 0] S512x309.size inb_S8192x309_S512x309_4608_0, p9⟩,
        ⟨Rect.unit (s := S8192x309) ![4096, 0] S512x309.size inb_S8192x309_S512x309_4096_0, p8⟩,
        ⟨Rect.unit (s := S8192x309) ![3584, 0] S512x309.size inb_S8192x309_S512x309_3584_0, p7⟩,
        ⟨Rect.unit (s := S8192x309) ![3072, 0] S512x309.size inb_S8192x309_S512x309_3072_0, p6⟩,
        ⟨Rect.unit (s := S8192x309) ![2560, 0] S512x309.size inb_S8192x309_S512x309_2560_0, p5⟩,
        ⟨Rect.unit (s := S8192x309) ![2048, 0] S512x309.size inb_S8192x309_S512x309_2048_0, p4⟩,
        ⟨Rect.unit (s := S8192x309) ![1536, 0] S512x309.size inb_S8192x309_S512x309_1536_0, p3⟩,
        ⟨Rect.unit (s := S8192x309) ![1024, 0] S512x309.size inb_S8192x309_S512x309_1024_0, p2⟩,
        ⟨Rect.unit (s := S8192x309) ![512, 0] S512x309.size inb_S8192x309_S512x309_512_0, p1⟩,
        ⟨Rect.unit (s := S8192x309) ![0, 0] S512x309.size inb_S8192x309_S512x309_0_0, p0⟩] : List (View.Piece (Elt F) S8192x309 .f32)),
      y ∈ pc.1.set :=
  View.cover_of_tiledL (s := S8192x309) _ S512x309.size (by sl_kernel_rfl) y

/-- Every store writes its rows of `rowsOf` of the input block. -/
theorem stores_rows (arg1 : Memref sig .tc .vmem S1x4x512x312 .f32) (f0 : arg1.view.ty.Contents (Elt F)) :
    ∀ p ∈ stores arg1 f0, ∀ x : p.1.shape.Idx, p.2 x = rowsOf (arg1.view.read (Elt F) f0) (p.1.emb x) := by
  intro p hp
  simp only [List.mem_cons, List.mem_nil_iff, or_false] at hp
  rcases hp with rfl | rfl | rfl | rfl | rfl | rfl | rfl | rfl | rfl | rfl | rfl | rfl | rfl | rfl | rfl | rfl
  · exact fun x => piece_rows arg1 f0 3 3 _ _ (by decide) (by decide) 7680 rfl inb_S8192x309_S512x309_7680_0 x
  · exact fun x => piece_rows arg1 f0 3 2 _ _ (by decide) (by decide) 7168 rfl inb_S8192x309_S512x309_7168_0 x
  · exact fun x => piece_rows arg1 f0 3 1 _ _ (by decide) (by decide) 6656 rfl inb_S8192x309_S512x309_6656_0 x
  · exact fun x => piece_rows arg1 f0 3 0 _ _ (by decide) (by decide) 6144 rfl inb_S8192x309_S512x309_6144_0 x
  · exact fun x => piece_rows arg1 f0 2 3 _ _ (by decide) (by decide) 5632 rfl inb_S8192x309_S512x309_5632_0 x
  · exact fun x => piece_rows arg1 f0 2 2 _ _ (by decide) (by decide) 5120 rfl inb_S8192x309_S512x309_5120_0 x
  · exact fun x => piece_rows arg1 f0 2 1 _ _ (by decide) (by decide) 4608 rfl inb_S8192x309_S512x309_4608_0 x
  · exact fun x => piece_rows arg1 f0 2 0 _ _ (by decide) (by decide) 4096 rfl inb_S8192x309_S512x309_4096_0 x
  · exact fun x => piece_rows arg1 f0 1 3 _ _ (by decide) (by decide) 3584 rfl inb_S8192x309_S512x309_3584_0 x
  · exact fun x => piece_rows arg1 f0 1 2 _ _ (by decide) (by decide) 3072 rfl inb_S8192x309_S512x309_3072_0 x
  · exact fun x => piece_rows arg1 f0 1 1 _ _ (by decide) (by decide) 2560 rfl inb_S8192x309_S512x309_2560_0 x
  · exact fun x => piece_rows arg1 f0 1 0 _ _ (by decide) (by decide) 2048 rfl inb_S8192x309_S512x309_2048_0 x
  · exact fun x => piece_rows arg1 f0 0 3 _ _ (by decide) (by decide) 1536 rfl inb_S8192x309_S512x309_1536_0 x
  · exact fun x => piece_rows arg1 f0 0 2 _ _ (by decide) (by decide) 1024 rfl inb_S8192x309_S512x309_1024_0 x
  · exact fun x => piece_rows arg1 f0 0 1 _ _ (by decide) (by decide) 512 rfl inb_S8192x309_S512x309_512_0 x
  · exact fun x => piece_rows arg1 f0 0 0 _ _ (by decide) (by decide) 0 rfl inb_S8192x309_S512x309_0_0 x

/-- So the squeezed output block, after the stores, reads `rowsOf` of the input block. -/
theorem read_stores (arg1 : Memref sig .tc .vmem S1x4x512x312 .f32) (f0 : arg1.view.ty.Contents (Elt F))
    (arg2 : Memref sig .tc .vmem S1x8192x309 .f32) (f2 : (outM arg2).view.ty.Contents (Elt F)) :
    (outM arg2).view.read (Elt F) ((outM arg2).view.writes (Elt F) f2 (stores arg1 f0)) = rowsOf (arg1.view.read (Elt F) f0) := by
  rw [View.read_writes_eq_canon _ _ _ (stores_cover _ _ _ _ _ _ _ _ _ _ _ _ _ _ _ _)]
  funext y
  exact View.canon_apply_of_pieces (rowsOf (arg1.view.read (Elt F) f0)) (stores arg1 f0) (stores_rows arg1 f0) y
    (stores_cover _ _ _ _ _ _ _ _ _ _ _ _ _ _ _ _ y)

/-! ## Reading the output block through either memref -/

/-- Held by the block's elements or by the squeezed block's, the buffer is the same assertion. -/
theorem own_out (c : Dev nD) (arg2 : Memref sig .tc .vmem S1x8192x309 .f32) (g : arg2.view.ty.Contents (Elt F)) :
    (arg2.view.loc (c : Thread nD τ) ↦[arg2.view.set]{fullShare} g : sProp 𝕄)
      = ((outM arg2).view.loc (c : Thread nD τ) ↦[(outM arg2).view.set]{fullShare} g) :=
  SqueezedBlock.pointsTo_squeezed (n := 2) (d := ![8192, 309]) (c : Thread nD τ) arg2 zeros3 _ _ _ fullShare g

/-- So a buffer whose squeezed block reads `rowsOf x` reads, as a block, `outBlk x`. -/
theorem read_block (arg2 : Memref sig .tc .vmem S1x8192x309 .f32) (g : arg2.view.ty.Contents (Elt F)) (x : Vec F S1x4x512x312 .f32)
    (h : (outM arg2).view.read (Elt F) g = rowsOf x) : arg2.view.read (Elt F) g = outBlk x := by
  rw [SqueezedBlock.read_block_of_squeezed (n := 2) (d := ![8192, 309]) arg2 zeros3 _ _ _ g (rowsOf x) h]
  funext y
  unfold outBlk
  refine congrArg (rowsOf x) (funext fun a => Fin.ext ?_)
  match a with
  | ⟨0, _⟩ => rfl
  | ⟨1, _⟩ => rfl

/-! ## The body's triple -/

set_option maxHeartbeats 1000000 in
/-- The body run: the input buffer held at `f0`, the output buffer by the squeezed block's elements at anything,
    it returns the input as it was and the output at the sixteen stores written over what it held. -/
theorem sound_core (c : Dev nD) (E : Set ℕ) (i : grid0.Coords) (arg1 : Memref sig .tc .vmem S1x4x512x312 .f32) (harg1 : arg1.IsWhole)
    (arg2 : Memref sig .tc .vmem S1x8192x309 .f32) (harg2 : arg2.IsWhole)
    (f0 : arg1.view.ty.Contents (Elt F)) (f2 : (outM arg2).view.ty.Contents (Elt F)) (K : PUnit → sProp 𝕄) :
    iprop((arg1.view.loc (c : Thread nD τ) ↦[arg1.view.set]{fullShare} f0)
        ∗ ((outM arg2).view.loc (c : Thread nD τ) ↦[(outM arg2).view.set]{fullShare} f2)
        ∗ (iprop((arg1.view.loc (c : Thread nD τ) ↦[arg1.view.set]{fullShare} f0)
            ∗ ((outM arg2).view.loc (c : Thread nD τ) ↦[(outM arg2).view.set]{fullShare}
                (outM arg2).view.writes (Elt F) f2 (stores arg1 f0))) -∗ K ⟨⟩))
      ⊢ wp frame (wpE (defs₀ (F := F)) Variants.none c none) E (cc0__enframe_kernel i arg1 harg1 arg2 harg2) K := by
  iintro ⟨H0, H2, Hk⟩
  sl_unfold [cc0__enframe_kernel]
  sl_exec
  sl_step
  iapply Hk
  isplitl [H0]
  · iexact H0
  iexact H2

/-- The body on whole staging memrefs: the input's at the block `x0`, the output's at anything, it returns the input's
    as it was and the output's at `outBlk x0`. -/
theorem sound_kernel (c : Dev nD) (E : Set ℕ) (i : grid0.Coords) (arg1 : Memref sig .tc .vmem S1x4x512x312 .f32) (harg1 : arg1.IsWhole)
    (arg2 : Memref sig .tc .vmem S1x8192x309 .f32) (harg2 : arg2.IsWhole) (x0 : Vec F S1x4x512x312 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlk x0)) -∗ K ⟨⟩))
      ⊢ wp frame (wpE (defs₀ (F := F)) Variants.none c none) E (cc0__enframe_kernel i arg1 harg1 arg2 harg2) K := by
  unfold owns
  iintro ⟨⟨%f0, %hf0, H0⟩, ⟨%d2, %f2, -, H2⟩, Hk⟩
  subst hf0
  ihave H2' := (Entails.of_eq (own_out c arg2 f2)) $$ H2
  iapply (sound_core c E i arg1 harg1 arg2 harg2 f0 f2 K)
  isplitl [H0]; · iexact H0
  isplitl [H2']; · iexact H2'
  iintro ⟨H0, H2⟩
  iapply Hk
  isplitl [H0]
  · iexists f0; isplitr; · ipureintro; rfl
    iexact H0
  iexists ((outM arg2).view.writes (Elt F) f2 (stores arg1 f0)); isplitr
  · ipureintro; exact read_block arg2 _ _ (read_stores arg1 f0 arg2 f2)
  iapply (Entails.of_eq (own_out c arg2 _).symm)
  iexact H2

/-! ## The pipeline's proof data -/

variable (m : (ℓ : Loc nD τ sig) → Buf (Elt F) ℓ) (ρ : Dev nD → PrngReg)

/-- The proof data of the one pipeline on core `c`: the arrays as the region finds them; after the body at point `t` the
    input's buffer at its block and the output's at `outBlk` of it; nothing of its own kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlk (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outBlk (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ _ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program runs and leaves its argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.KernelValue.lean ====
/-
  What the kernel's program computes: the framed signal.

  Before the launch the host cuts the signal to its first 312 · 512 samples, splits the time axis into 312 chunks of
  512 samples and swaps chunk and position, so that the array the kernel's input window stages holds at
  (b, c, h, k) sample 512 k + h of channel c of batch b. Grid point b is handed block b of that array and writes
  back block b of the result. By the body's function (`outBlk`), entry (b, r, n) of the result is entry
  (b, r / 2048, r % 512, (r / 512) % 4 + n) of the staged array, that is sample
  512 ((r / 512) % 4 + n) + r % 512 = r % 2048 + 512 n of channel r / 2048: `enframe` of the argument. The sixteen
  blocks, one per batch, cover the result array.
-/
import proofs.«154891_j66503273612039_2_alg».proof.Proof.Body
import proofs.«154891_j66503273612039_2_alg».proof.Proof.Spec
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Body Cert.Enframe
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-! ## The array the input window stages -/

/-- The host's three operations before the launch, as one term of the argument. -/
theorem staged_eq (c : Dev nD) :
    (V m c main_v2 : S16x4x512x312.Idx → Elt F .f32)
      = transpose S16x4x512x312 [0, 1, 3, 2]
          (shapeCast S16x4x312x512
            (extractStridedSlice S16x4x159744 ![0, 0, 0] (m ((c : Thread nD τ).loc main_arg0)) slices_S16x4x160000_S16x4x159744_0_0_0)
            shapeCasts_S16x4x159744_S16x4x312x512)
          transposes_S16x4x312x512_S16x4x512x312_0_1_3_2 := by
  dsimp only [Gen.V, Gen.hostOps0]
  after_results
  rfl

/-- Entry (b, c, h, k) of the staged array is sample 512 k + h of channel c of batch b. -/
theorem staged_apply (c : Dev nD) (i : S16x4x512x312.Idx) :
    V m c main_v2 i
      = m ((c : Thread nD τ).loc main_arg0) (ix3 (n0 := 16) (n1 := 4) (n2 := 160000) ⟨(i 0).val, (i 0).isLt⟩ ⟨(i 1).val, (i 1).isLt⟩
          ⟨512 * (i 3).val + (i 2).val, by
            have h2 : (i 2).val < 512 := (i 2).isLt
            have h3 : (i 3).val < 312 := (i 3).isLt
            omega⟩) := by
  have h0 : (i 0).val < 16 := (i 0).isLt
  have h1 : (i 1).val < 4 := (i 1).isLt
  have h2 : (i 2).val < 512 := (i 2).isLt
  have h3 : (i 3).val < 312 := (i 3).isLt
  rw [staged_eq]
  refine (transpose_apply [0, 1, 3, 2] _ transposes_S16x4x312x512_S16x4x512x312_0_1_3_2 i
    (ix4 (n0 := 16) (n1 := 4) (n2 := 312) (n3 := 512) ⟨(i 0).val, h0⟩ ⟨(i 1).val, h1⟩ ⟨(i 3).val, h3⟩ ⟨(i 2).val, h2⟩) (fun b => ?_)).trans ?_
  · match b with
    | ⟨0, _⟩ => rfl
    | ⟨1, _⟩ => rfl
    | ⟨2, _⟩ => rfl
    | ⟨3, _⟩ => rfl
  refine (shapeCast_apply _ shapeCasts_S16x4x159744_S16x4x312x512 _
    (ix3 (n0 := 16) (n1 := 4) (n2 := 159744) ⟨(i 0).val, h0⟩ ⟨(i 1).val, h1⟩ ⟨512 * (i 3).val + (i 2).val, by omega⟩) ?_).trans ?_
  · rw [Shape.rowMajor_val_three, Shape.rowMajor_val_four]
    show ((i 0).val * 4 + (i 1).val) * 159744 + (512 * (i 3).val + (i 2).val)
      = (((i 0).val * 4 + (i 1).val) * 312 + (i 3).val) * 512 + (i 2).val
    omega
  refine extractStridedSlice_apply (s := S16x4x160000) (t := S16x4x159744) ![0, 0, 0] _ slices_S16x4x160000_S16x4x159744_0_0_0 _ _ (fun a => ?_)
  match a with
  | ⟨0, _⟩ => show (i 0).val = 0 + (i 0).val; omega
  | ⟨1, _⟩ => show (i 1).val = 0 + (i 1).val; omega
  | ⟨2, _⟩ => show 512 * (i 3).val + (i 2).val = 0 + (512 * (i 3).val + (i 2).val); omega

/-! ## What each point writes back -/

/-- The printed index maps, decided over the sixteen grid points: both windows move along the batch axis together and
    sit at block 0 of every other axis. -/
theorem idx_facts : ∀ t : Fin cfg0.N, win0_0.index t (0 : Fin 4) = win0_1.index t (0 : Fin 3)
    ∧ win0_0.index t (1 : Fin 4) = 0 ∧ win0_0.index t (2 : Fin 4) = 0 ∧ win0_0.index t (3 : Fin 4) = 0
    ∧ win0_1.index t (1 : Fin 3) = 0 ∧ win0_1.index t (2 : Fin 3) = 0 ∧ win0_1.index t (0 : Fin 3) ≤ 15 :=
  (by decide +kernel : ∀ t : Fin grid0.N, _)

/-- Every batch is some point's. -/
theorem idx_onto : ∀ q0 : Fin 16, ∃ t : Fin cfg0.N, win0_1.index t = ![q0.val, 0, 0] :=
  (by decide +kernel : ∀ q0 : Fin 16, ∃ t : Fin grid0.N, win0_1.index t = ![q0.val, 0, 0])

/-- WHAT POINT `t` WRITES BACK is block `t` of the framed signal. -/
theorem flushed1_eq (c : Dev nD) (t : Fin cfg0.N) :
    (dats m 0 c).flushed 1 t
      = ((cfg0.win 1).blk t).view.read (Elt F) (enframe (m ((c : Thread nD τ).loc main_arg0))) := by
  show (cfg0.win 1).cut (grid0.coords t) ((dats m 0 c).after 1 t) = _
  rw [after0_1]
  obtain ⟨e0, e1, e2, e3, e4, e5, e6⟩ := idx_facts t
  funext j
  have hj0 : (j 0).val < 1 := (j 0).isLt
  have hj1 : (j 1).val < 8192 := (j 1).isLt
  have hj2 : (j 2).val < 309 := (j 2).isLt
  show V m c main_v2 (((cfg0.win 0).blk t).view.emb
      (ix4 (n0 := 1) (n1 := 4) (n2 := 512) (n3 := 312) ⟨0, Nat.one_pos⟩ ⟨(j 1).val / 2048, by omega⟩ ⟨(j 1).val % 512, by omega⟩
        ⟨(j 1).val / 512 % 4 + (j 2).val, by omega⟩))
    = enframe (m ((c : Thread nD τ).loc main_arg0)) (((cfg0.win 1).blk t).view.emb j)
  rw [staged_apply, enframe_apply]
  refine congrArg (m ((c : Thread nD τ).loc main_arg0)) (funext fun a => Fin.ext ?_)
  match a with
  | ⟨0, _⟩ =>
    show win0_0.index t (0 : Fin 4) * 1 + 1 * 0 = win0_1.index t (0 : Fin 3) * 1 + 1 * (j 0).val
    omega
  | ⟨1, _⟩ =>
    show win0_0.index t (1 : Fin 4) * 4 + 1 * ((j 1).val / 2048) = (win0_1.index t (1 : Fin 3) * 8192 + 1 * (j 1).val) / 2048
    omega
  | ⟨2, _⟩ =>
    show 512 * (win0_0.index t (3 : Fin 4) * 312 + 1 * ((j 1).val / 512 % 4 + (j 2).val))
        + (win0_0.index t (2 : Fin 4) * 512 + 1 * ((j 1).val % 512))
      = (win0_1.index t (1 : Fin 3) * 8192 + 1 * (j 1).val) % 2048 + 512 * (win0_1.index t (2 : Fin 3) * 309 + 1 * (j 2).val)
    omega

/-! ## The blocks cover the result -/

/-- An index of the result is in point `t`'s block iff each coordinate is in the block's range on its axis. -/
theorem mem_blk1 (t : Fin cfg0.N) (i : S16x8192x309.Idx) :
    i ∈ ((cfg0.win 1).blk t).view.set ↔ ∀ a : Fin 3, win0_1.index t a * S1x8192x309.size a ≤ (i a).val
      ∧ (i a).val < win0_1.index t a * S1x8192x309.size a + S1x8192x309.size a := by
  show i ∈ ((View.whole main_v3).slice (win0_1.rect t)).set ↔ _
  rw [View.set_slice_whole, Rect.mem_set_unit]
  exact Iff.rfl

/-- Every index of the result is in the block of the point of its batch. -/
theorem covered (i : S16x8192x309.Idx) :
    ∃ t : Fin cfg0.N, (cfg0.win 1).flush t = true ∧ i ∈ ((cfg0.win 1).blk t).view.set := by
  have hi0 : (i 0).val < 16 := (i 0).isLt
  have hi1 : (i 1).val < 8192 := (i 1).isLt
  have hi2 : (i 2).val < 309 := (i 2).isLt
  obtain ⟨t, ht⟩ := idx_onto ⟨(i 0).val, hi0⟩
  have q0 : win0_1.index t (0 : Fin 3) = (i 0).val := congrFun ht 0
  have q1 : win0_1.index t (1 : Fin 3) = 0 := congrFun ht 1
  have q2 : win0_1.index t (2 : Fin 3) = 0 := congrFun ht 2
  refine ⟨t, flush0_1 t, ?_⟩
  rw [mem_blk1]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 8192 ≤ (i 1).val ∧ (i 1).val < win0_1.index t (1 : Fin 3) * 8192 + 8192; omega
  | ⟨2, _⟩ => show win0_1.index t (2 : Fin 3) * 309 ≤ (i 2).val ∧ (i 2).val < win0_1.index t (2 : Fin 3) * 309 + 309; omega

/-- THE RESULT ARRAY after the run is the framed signal. -/
theorem final1 (c : Dev nD) : (dats m 0 c).arrAt 1 cfg0.N = enframe (m ((c : Thread nD τ).loc main_arg0)) :=
  (dats m 0 c).arrAt_eq_of_cover 1 (enframe (m ((c : Thread nD τ).loc main_arg0))) (fun t _ => flushed1_eq m c t) covered

/-! ## The run, read -/

/-- Every weakly fair execution of the program terminates with its result the framed signal and its argument as
    launched. -/
theorem run : θ_run defs (onTc (τ := τ) (main (F := F))) ⟨m, fun _ => 0, ρ⟩ fun r => ∀ c : Dev nD,
      r.2.mem ((c : Thread nD τ).loc main_v3) = enframe (m ((c : Thread nD τ).loc main_arg0))
      ∧ r.2.mem ((c : Thread nD τ).loc main_arg0) = m ((c : Thread nD τ).loc main_arg0) :=
  (θ_run defs _ _).mono (fun r h c => ⟨((h c).1 1).trans (final1 m c),
      ((h c).2 main_arg0 (Pipeline.mem_restRefs_of main_arg0 (by decide) (by decide))).trans (V_main_arg0 m c)⟩)
    (run_main m ρ)

end Cert.KernelIdeal.KValue

end
-- ==== Proof.lean ====
/-
  The framing kernel against its reference: both compute the framed signal.

  A signal x of 160000 samples per (batch, channel) pair — 16 batches, 4 channels — is cut into 309 frames of 2048
  samples, consecutive frames 512 samples apart, the four channels' frames laid one after the other:

      result (b, 2048 c + f, n) = x (b, c, f + 512 n)        (`Cert.Enframe.enframe`, Proof/Spec.lean).

  The kernel's program cuts the time axis into 312 chunks of 512 samples on the host, swaps chunk and position, and
  launches a grid of 16 points, one per batch; a point copies, for each channel and each quarter q of a frame, the 309
  consecutive chunks q … q + 308 into 512 rows of its output block — a frame is four consecutive chunks
  (Proof/Body.lean: what the body leaves; Proof/KernelValue.lean: the result array). The reference computes the table
  of positions f + 512 n in 32-bit integers and gathers (Proof/RefValue.lean). Neither adds, multiplies or rounds
  anything, so the two results are equal entry by entry for whatever the samples are: the precondition is not used,
  and the idealization rewrote nothing (`preserves` is `True`).

  The frames of the two kernel programs are the body's triple under the library's launch theorem
  (Proof/Body.lean at the idealized program, Proof/BodyKernel.lean the same text at the printed one); the
  reference's frame is its generated run with the result dropped.
-/
import proofs.«154891_j66503273612039_2_alg».proof.Defs
import proofs.«154891_j66503273612039_2_alg».proof.Proof.Gen.Kernel
import proofs.«154891_j66503273612039_2_alg».proof.Proof.Gen.KernelIdeal
import proofs.«154891_j66503273612039_2_alg».proof.Proof.Gen.ReferenceIdeal
import proofs.«154891_j66503273612039_2_alg».proof.Proof.Gen.Pre_finite_inputs
import proofs.«154891_j66503273612039_2_alg».proof.Proof.Gen.ReferenceIdeal.Run
import proofs.«154891_j66503273612039_2_alg».proof.Proof.Gen.ReferenceIdeal.Read
import proofs.«154891_j66503273612039_2_alg».proof.Proof.Spec
import proofs.«154891_j66503273612039_2_alg».proof.Proof.RefValue
import proofs.«154891_j66503273612039_2_alg».proof.Proof.BodyKernel
import proofs.«154891_j66503273612039_2_alg».proof.Proof.Body
import proofs.«154891_j66503273612039_2_alg».proof.Proof.KernelValue

noncomputable section

namespace Cert.Proof

open Idealize.ShloMosaic Idealize.ShloMosaic.TcCoe Idealize.SL.Sem

/-- The printed kernel program runs and leaves its argument as launched. -/
theorem frame_k : Cert.frame_Kernel := fun m ρ _ => Cert.Kernel.Body.frame m ρ

/-- So does the idealized one. -/
theorem frame_ki : Cert.frame_KernelIdeal := fun m ρ _ => Cert.KernelIdeal.Body.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the signal, both programs end with the framed signal. -/
theorem algebraic : Cert.algebraic_KernelIdeal_ReferenceIdeal := by
  intro m ρ m' ρ' _ hagree
  refine ⟨fun c => Cert.Enframe.enframe (m ((c.tc : Thread Cert.KernelIdeal.nD Cert.KernelIdeal.τ).loc Cert.KernelIdeal.main_arg0)),
    Cert.KernelIdeal.KValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v16_eq _).trans (Cert.ReferenceIdeal.RefValue.ref_enframe _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
